-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S1024x1024 .f32) (main_arg6 : FVec F S1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S512x1024 : Shape := ⟨2, ![512, 1024]⟩
abbrev S64x2048x128 : Shape := ⟨3, ![64, 2048, 128]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 35
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S8x2048x1024, .bf16⟩
  | .hbm, ⟨21, _⟩ => ⟨S16384x1024, .bf16⟩
  | .hbm, ⟨22, _⟩ => ⟨S16384x1024, .bf16⟩
  | .hbm, ⟨23, _⟩ => ⟨S8x2048x1024, .bf16⟩
  | .hbm, ⟨24, _⟩ => ⟨S8x2048x1024, .bf16⟩
  | .hbm, ⟨25, _⟩ => ⟨S64x2048x128, .bf16⟩
  | .hbm, ⟨26, _⟩ => ⟨S64x2048x128, .bf16⟩
  | .hbm, ⟨27, _⟩ => ⟨S64x2048x128, .bf16⟩
  | .hbm, ⟨28, _⟩ => ⟨S64x2048x128, .bf16⟩
  | .hbm, ⟨29, _⟩ => ⟨S16384x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S16384x1024, .f32⟩
  | .hbm, ⟨34, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x512x128, .bf16⟩
  | .local _ .vmem, ⟨14, _⟩ => ⟨S1x512x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x512x128, .bf16⟩
  | .local _ .vmem, ⟨20, _⟩ => ⟨S1x512x128, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S1024x1024, .bf16⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem6_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![64, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S1024x1024_S1024x1024_1_0 : S1024x1024.Transposes [1, 0] S1024x1024
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  shapeCasts_S8x2048x1024_S64x2048x128 : S8x2048x1024.ShapeCasts S64x2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S64x2048x128_S16384x1024 : S64x2048x128.ShapeCasts S16384x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .bf16 = 32 ∨ (Rect.block (s := S16384x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .bf16 = 32 ∨ (Rect.block (s := S16384x1024) S512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S16384x1024.size a
  hwx1_4 : ∀ i : grid1.Coords, EltTy.bits .bf16 = 32 ∨ (Rect.block (s := S16384x1024) S512x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x128.size a ≤ S64x2048x128.size a
  hwx2_0 : ∀ i : grid2.Coords, EltTy.bits .bf16 = 32 ∨ (Rect.block (s := S64x2048x128) S1x512x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S64x2048x128.size a
  hwx2_1 : ∀ i : grid2.Coords, EltTy.bits .bf16 = 32 ∨ (Rect.block (s := S64x2048x128) S1x2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x128.size a ≤ S64x2048x128.size a
  hwx2_2 : ∀ i : grid2.Coords, EltTy.bits .bf16 = 32 ∨ (Rect.block (s := S64x2048x128) S1x2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x128.size a ≤ S64x2048x128.size a
  hwx2_3 : ∀ i : grid2.Coords, EltTy.bits .bf16 = 32 ∨ (Rect.block (s := S64x2048x128) S1x512x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S16384x1024.size a
  hwx3_0 : ∀ i : grid3.Coords, EltTy.bits .bf16 = 32 ∨ (Rect.block (s := S16384x1024) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S16384x1024.size a
  hwx3_1 : ∀ i : grid3.Coords, EltTy.bits .f32 = 32 ∨ (Rect.block (s := S16384x1024) S512x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S1024x1024.size a
  hwx3_2 : ∀ i : grid3.Coords, EltTy.bits .bf16 = 32 ∨ (Rect.block (s := S1024x1024) S1024x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x1024.size a ≤ S16384x1024.size a
  hwx3_6 : ∀ i : grid3.Coords, EltTy.bits .f32 = 32 ∨ (Rect.block (s := S16384x1024) S512x1024.size (cc3_transform_6 i) (hinb3_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S1x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1024x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v23) S512x1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S64x2048x128 : Shape := ⟨3, ![64, 2048, 128]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S64x2048x128, .f32⟩
  | .hbm, ⟨13, _⟩ => ⟨S64x2048x128, .f32⟩
  | .hbm, ⟨14, _⟩ => ⟨S64x2048x128, .f32⟩
  | .hbm, ⟨15, _⟩ => ⟨S64x2048x2048, .f32⟩
  | .hbm, ⟨16, _⟩ => ⟨S_, .f32⟩
  | .hbm, ⟨17, _⟩ => ⟨S64x2048x2048, .f32⟩
  | .hbm, ⟨18, _⟩ => ⟨S64x2048x2048, .f32⟩
  | .hbm, ⟨19, _⟩ => ⟨S_, .f32⟩
  | .hbm, ⟨20, _⟩ => ⟨S64x2048, .f32⟩
  | .hbm, ⟨21, _⟩ => ⟨S_, .f32⟩
  | .hbm, ⟨22, _⟩ => ⟨S64x2048, .f32⟩
  | .hbm, ⟨23, _⟩ => ⟨S64x2048, .f32⟩
  | .hbm, ⟨24, _⟩ => ⟨S64x2048x1, .f32⟩
  | .hbm, ⟨25, _⟩ => ⟨S64x2048x2048, .f32⟩
  | .hbm, ⟨26, _⟩ => ⟨S64x2048x2048, .f32⟩
  | .hbm, ⟨27, _⟩ => ⟨S64x2048x2048, .f32⟩
  | .hbm, ⟨28, _⟩ => ⟨S_, .f32⟩
  | .hbm, ⟨29, _⟩ => ⟨S64x2048, .f32⟩
  | .hbm, ⟨30, _⟩ => ⟨S64x2048x1, .f32⟩
  | .hbm, ⟨31, _⟩ => ⟨S64x2048x2048, .f32⟩
  | .hbm, ⟨32, _⟩ => ⟨S64x2048x2048, .f32⟩
  | .hbm, ⟨33, _⟩ => ⟨S64x2048x128, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S1x1x1024, .f32⟩
  | .hbm, ⟨64, _⟩ => ⟨S8x2048x1024, .f32⟩
  | .hbm, ⟨65, _⟩ => ⟨S8x2048x1024, .f32⟩
  | .hbm, ⟨66, _⟩ => ⟨S1x1x1024, .f32⟩
  | .hbm, ⟨67, _⟩ => ⟨S8x2048x1024, .f32⟩
  | .hbm, ⟨68, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  shapeCasts_S8x2048x1024_S64x2048x128 : S8x2048x1024.ShapeCasts S64x2048x128
  bcast_S_S64x2048x2048 : S_.BroadcastsInDim S64x2048x2048 (![] : Fin 0 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  shapeCasts_S64x2048x128_S8x2048x1024 : S64x2048x128.ShapeCasts S8x2048x1024
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  dot_S8x2048x1024_S1024x1024_S8x2048x1024_2_1_01_0_n_n_wf : DotDims.WF S8x2048x1024 S1024x1024 S8x2048x1024 [2] [1] [0, 1] [0] [] []
  dot_S64x2048x128_S64x2048x128_S64x2048x2048_2_2_1_1_0_0_wf : DotDims.WF S64x2048x128 S64x2048x128 S64x2048x2048 [2] [2] [1] [1] [0] [0]
  dot_S64x2048x2048_S64x2048x128_S64x2048x128_2_1_1_2_0_0_wf : DotDims.WF S64x2048x2048 S64x2048x128 S64x2048x128 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S64x2048x128_S64x2048x128_S64x2048x2048_2_2_1_1_0_0 : DotDims S64x2048x128 S64x2048x128 S64x2048x2048 where
  lhsContracting := [2]
  rhsContracting := [2]
  lhsNonContracting := [1]
  rhsNonContracting := [1]
  lhsBatch := [0]
  rhsBatch := [0]
  wf := dot_S64x2048x128_S64x2048x128_S64x2048x2048_2_2_1_1_0_0_wf
def dot_S64x2048x2048_S64x2048x128_S64x2048x128_2_1_1_2_0_0 : DotDims S64x2048x2048 S64x2048x128 S64x2048x128 where
  lhsContracting := [2]
  rhsContracting := [1]
  lhsNonContracting := [1]
  rhsNonContracting := [2]
  lhsBatch := [0]
  rhsBatch := [0]
  wf := dot_S64x2048x2048_S64x2048x128_S64x2048x128_2_1_1_2_0_0_wf

class Facts : Prop extends Facts₀ where

variable [Facts]
-- ==== Proof.KernelRun.lean ====
/-
  The run of the idealized kernel program with its RESULT named: every weakly fair execution of @main terminates, nothing
  faulting, the argument arrays end as launched, and the result array `main_v24` ends holding what the last boundary's
  contents give it — the fold of the four regions' write-backs and the five stretches of host operations over the launch
  memory (the generated `W9`). The value modules read that fold back to a function of the arguments.
-/
import proofs.«160679_j1116691497080_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' launch, its last thread state read against the final state: the result array holds the last boundary's
    contents at `main_v24`, and each argument array its launch contents. -/
theorem run : θ_run defs (onTc (τ := τ) (main (F := F))) ⟨m, fun _ => 0, ρ⟩ (fun r => ∀ c : Dev nD,
      r.2.mem ((c.tc : Thread nD τ).loc main_v24) = W9 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v24 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Result

end
-- ==== Proof.MatmulRead.lean ====
/-
  The three matrix products of the kernels' bodies read at an entry, at the ideal values: a product into a zero
  accumulator is, at (p, q), the sum over the contracted coordinate k of the left operand's entry times the right
  operand's — rows by columns for the projections and for probabilities times values, rows by rows for queries times keys.
-/
import proofs.«160679_j1116691497080_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Pay

open Idealize.ShloMosaic Idealize.SL.Sem Idealize.ShloMosaic.ValueIdx
open Cert.KernelIdeal Cert.KernelIdeal.Gen
open Cert.KernelIdeal.Facts₀ Cert.KernelIdeal.Facts

theorem d1_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem d1_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem d1_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem d1_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q

/-- The body's matrix product into a zero accumulator, read at row `p` and column `q`: the sum over the contracted
    coordinate of the two operands' entries. -/
theorem matmul_rows_cols_1024 {φ₁ φ₂ : FTy} (lhs : FVec Ideal S512x1024 φ₁) (rhs : FVec Ideal S1024x1024 φ₂) (p : Fin 512) (q : Fin 1024) :
    matmul dot_S512x1024_S1024x1024_S512x1024_1_0_0_1_n_n none lhs rhs (constant (F := Ideal) S512x1024 .f32 0x00000000#32) (ix2 p q)
      = ∑ k : Fin 1024, lhs (ix2 p k) * rhs (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact d1_l0 _ _
    | ⟨1, _⟩ => exact (d1_l1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (d1_r0 _ _).trans hk
    | ⟨1, _⟩ => exact d1_r1 _ _)
  rw [el, er]

theorem d2_l0 (i : S512x2048.Idx) (q : dot_S512x128_S2048x128_S512x2048_1_1_0_0_n_n.contr.Idx) : (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem d2_l1 (i : S512x2048.Idx) (q : dot_S512x128_S2048x128_S512x2048_1_1_0_0_n_n.contr.Idx) : (dot_S512x128_S2048x128_S512x2048_1_1_0_0_n_n.lhsIdx i q 1).val = (q ⟨0, by decide⟩).val :=
  dot_S512x128_S2048x128_S512x2048_1_1_0_0_n_n.lhsIdx_val_of_single rfl i q
theorem d2_r0 (i : S512x2048.Idx) (q : dot_S512x128_S2048x128_S512x2048_1_1_0_0_n_n.contr.Idx) : (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem d2_r1 (i : S512x2048.Idx) (q : dot_S512x128_S2048x128_S512x2048_1_1_0_0_n_n.contr.Idx) : (dot_S512x128_S2048x128_S512x2048_1_1_0_0_n_n.rhsIdx i q 1).val = (q ⟨0, by decide⟩).val :=
  dot_S512x128_S2048x128_S512x2048_1_1_0_0_n_n.rhsIdx_val_of_single rfl i q

/-- The body's matrix product into a zero accumulator, read at row `p` and column `q`: the sum over the contracted
    coordinate of the two operands' entries. -/
theorem matmul_rows_rows_128 {φ₁ φ₂ : FTy} (lhs : FVec Ideal S512x128 φ₁) (rhs : FVec Ideal S2048x128 φ₂) (p : Fin 512) (q : Fin 2048) :
    matmul dot_S512x128_S2048x128_S512x2048_1_1_0_0_n_n none lhs rhs (constant (F := Ideal) S512x2048 .f32 0x00000000#32) (ix2 p q)
      = ∑ k : Fin 128, lhs (ix2 p k) * rhs (ix2 q k) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 p q) ((ValueIdx.contrEquiv1 dot_S512x128_S2048x128_S512x2048_1_1_0_0_n_n 128 rfl rfl).symm k) = ix2 p k := funext fun a => Fin.ext (by
    match a with
    | ⟨0, _⟩ => exact d2_l0 _ _
    | ⟨1, _⟩ => exact (d2_l1 _ _).trans hk)
  have er : dot_S512x128_S2048x128_S512x2048_1_1_0_0_n_n.rhsIdx (ix2 p q) ((ValueIdx.contrEquiv1 dot_S512x128_S2048x128_S512x2048_1_1_0_0_n_n 128 rfl rfl).symm k) = ix2 q k := funext fun a => Fin.ext (by
    match a with
    | ⟨0, _⟩ => exact d2_r0 _ _
    | ⟨1, _⟩ => exact (d2_r1 _ _).trans hk)
  rw [el, er]

theorem d3_l0 (i : S512x128.Idx) (q : dot_S512x2048_S2048x128_S512x128_1_0_0_1_n_n.contr.Idx) : (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem d3_l1 (i : S512x128.Idx) (q : dot_S512x2048_S2048x128_S512x128_1_0_0_1_n_n.contr.Idx) : (dot_S512x2048_S2048x128_S512x128_1_0_0_1_n_n.lhsIdx i q 1).val = (q ⟨0, by decide⟩).val :=
  dot_S512x2048_S2048x128_S512x128_1_0_0_1_n_n.lhsIdx_val_of_single rfl i q
theorem d3_r1 (i : S512x128.Idx) (q : dot_S512x2048_S2048x128_S512x128_1_0_0_1_n_n.contr.Idx) : (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl
theorem d3_r0 (i : S512x128.Idx) (q : dot_S512x2048_S2048x128_S512x128_1_0_0_1_n_n.contr.Idx) : (dot_S512x2048_S2048x128_S512x128_1_0_0_1_n_n.rhsIdx i q 0).val = (q ⟨0, by decide⟩).val :=
  dot_S512x2048_S2048x128_S512x128_1_0_0_1_n_n.rhsIdx_val_of_single rfl i q

/-- The body's matrix product into a zero accumulator, read at row `p` and column `q`: the sum over the contracted
    coordinate of the two operands' entries. -/
theorem matmul_rows_cols_2048 {φ₁ φ₂ : FTy} (lhs : FVec Ideal S512x2048 φ₁) (rhs : FVec Ideal S2048x128 φ₂) (p : Fin 512) (q : Fin 128) :
    matmul dot_S512x2048_S2048x128_S512x128_1_0_0_1_n_n none lhs rhs (constant (F := Ideal) S512x128 .f32 0x00000000#32) (ix2 p q)
      = ∑ k : Fin 2048, lhs (ix2 p k) * rhs (ix2 k q) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p q) ((ValueIdx.contrEquiv1 dot_S512x2048_S2048x128_S512x128_1_0_0_1_n_n 2048 rfl rfl).symm k) = ix2 p k := funext fun a => Fin.ext (by
    match a with
    | ⟨0, _⟩ => exact d3_l0 _ _
    | ⟨1, _⟩ => exact (d3_l1 _ _).trans hk)
  have er : dot_S512x2048_S2048x128_S512x128_1_0_0_1_n_n.rhsIdx (ix2 p q) ((ValueIdx.contrEquiv1 dot_S512x2048_S2048x128_S512x128_1_0_0_1_n_n 2048 rfl rfl).symm k) = ix2 k q := funext fun a => Fin.ext (by
    match a with
    | ⟨0, _⟩ => exact (d3_r0 _ _).trans hk
    | ⟨1, _⟩ => exact d3_r1 _ _)
  rw [el, er]

end Cert.KernelIdeal.Pay

end
-- ==== Proof.LinearBody.lean ====
/-
  The projection kernels' bodies at an entry, at the ideal values: the block of rows times the whole transposed weight matrix.
  Rounding to bf16 is the identity there and a shape cast to the same shape moves nothing, so the stored value at (p, q) is the
  sum over k of x(p, k) · w(k, q) — for the single projection and for each of the two outputs of the fused one.
-/
import proofs.«160679_j1116691497080_2_alg».proof.Proof.MatmulRead

set_option maxRecDepth 16384

noncomputable section

namespace Cert.KernelIdeal.Pay

open Idealize.ShloMosaic Idealize.SL.Sem Idealize.ShloMosaic.ValueIdx
open Cert.KernelIdeal Cert.KernelIdeal.Gen
open Cert.KernelIdeal.Facts₀ Cert.KernelIdeal.Facts

/-- The single projection's stored block. -/
theorem proj_body (x : Vec Ideal S512x1024 .f32) (w : Vec Ideal S1024x1024 .bf16) (p : Fin 512) (q : Fin 1024) :
    k0_pay1 (F := Ideal) x w (ix2 p q) = ∑ k : Fin 1024, x (ix2 p k) * w (ix2 k q) := by
  unfold k0_pay1
  simp only [shapeCast_self]
  exact matmul_rows_cols_1024 (φ₁ := .bf16) (φ₂ := .bf16) _ _ p q

/-- The fused projection's first stored block (keys). -/
theorem proj_body_k (x : Vec Ideal S512x1024 .f32) (w : Vec Ideal S1024x1024 .bf16) (p : Fin 512) (q : Fin 1024) :
    k1_pay2 (F := Ideal) x w (ix2 p q) = ∑ k : Fin 1024, x (ix2 p k) * w (ix2 k q) := by
  unfold k1_pay2 k1_pay1
  simp only [shapeCast_self]
  exact matmul_rows_cols_1024 (φ₁ := .bf16) (φ₂ := .bf16) _ _ p q

/-- The fused projection's second stored block (values). -/
theorem proj_body_v (x : Vec Ideal S512x1024 .f32) (w : Vec Ideal S1024x1024 .bf16) (p : Fin 512) (q : Fin 1024) :
    k1_pay3 (F := Ideal) x w (ix2 p q) = ∑ k : Fin 1024, x (ix2 p k) * w (ix2 k q) := by
  unfold k1_pay3 k1_pay1
  simp only [shapeCast_self]
  exact matmul_rows_cols_1024 (φ₁ := .bf16) (φ₂ := .bf16) _ _ p q

end Cert.KernelIdeal.Pay

end
-- ==== Proof.Region0.lean ====
/-
  Region 0 (the query projection) as ONE function of the arrays it finds: the output array of 16384 rows ends holding, at
  (r, e), the sum over k of the row operand's (r, k) times the transposed weights' (k, e). Point t of the grid computes the
  512 rows from 512·t on from the same rows of the operand and the whole weight matrix; the thirty-two blocks tile the array.
-/
import proofs.«160679_j1116691497080_2_alg».proof.Proof.Gen.KernelIdeal.Frame
import proofs.«160679_j1116691497080_2_alg».proof.Proof.LinearBody

set_option maxRecDepth 16384

noncomputable section

namespace Cert.KernelIdeal.Reg0

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-- Rows times columns over the 1024 contracted coordinates: entry (r, e) of the product of a [16384, 1024] array with a
    [1024, 1024] one. -/
def rowsTimes (X : S16384x1024.Idx → EReal) (Wt : S1024x1024.Idx → EReal) : S16384x1024.Idx → EReal :=
  fun i => ∑ k : Fin 1024, X (ix2 (⟨(i 0).val, (i 0).isLt⟩ : Fin 16384) k) * Wt (ix2 k (⟨(i 1).val, (i 1).isLt⟩ : Fin 1024))

theorem rowsTimes_apply (X : S16384x1024.Idx → EReal) (Wt : S1024x1024.Idx → EReal) (i : S16384x1024.Idx) :
    rowsTimes X Wt i = ∑ k : Fin 1024, X (ix2 (⟨(i 0).val, (i 0).isLt⟩ : Fin 16384) k) * Wt (ix2 k (⟨(i 1).val, (i 1).isLt⟩ : Fin 1024)) := rfl

theorem zeros2 : (![0, 0] : Fin 2 → Nat) = fun _ => 0 := funext fun a => by fin_cases a <;> rfl

variable (V : (c : Dev nD) → (b : Ref sig .tc) → Buf (Elt Ideal) ((c : Thread nD τ).loc b))

/-- The row operand's window moves with the output's; the weights' window is the whole matrix at every point. -/
theorem idx_in : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Output window 2 moves down the rows with the grid point, and stays at column block 0. -/
theorem idx_out2 : ∀ t : Fin cfg0.N, win0_2.index t (0 : Fin 2) = t.val ∧ win0_2.index t (1 : Fin 2) = 0 :=
  (by decide +kernel : ∀ t : Fin grid0.N, _)

/-- An index of the array is in point `t`'s block iff each coordinate is in the block's range on its axis. -/
theorem mem_blk2 (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v10).slice (win0_2.rect t)).set ↔ _
  rw [View.set_slice_whole, Rect.mem_set_unit]
  exact Iff.rfl

/-- Row r of the array lies in the block of point r / 512: the thirty-two blocks of 512 rows tile the 16384 rows. -/
theorem cover2 (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  refine ⟨⟨(i 0).val / 512, by show (i 0).val / 512 < 32; omega⟩, flush0_2 _, ?_⟩
  rw [mem_blk2]
  obtain ⟨e0, e1⟩ := idx_out2 ⟨(i 0).val / 512, by show (i 0).val / 512 < 32; omega⟩
  intro a
  match a with
  | ⟨0, _⟩ => show win0_2.index _ (0 : Fin 2) * 512 ≤ (i 0).val ∧ (i 0).val < win0_2.index _ (0 : Fin 2) * 512 + 512; rw [e0]; show (i 0).val / 512 * 512 ≤ _ ∧ _ < (i 0).val / 512 * 512 + 512; omega
  | ⟨1, _⟩ => show win0_2.index _ (1 : Fin 2) * 1024 ≤ (i 1).val ∧ (i 1).val < win0_2.index _ (1 : Fin 2) * 1024 + 1024; rw [e1]; omega

/-- What point `t` writes back is block `t` of the product of the arrays the region finds. -/
theorem flushed_eq (c : Dev nD) (t : Fin cfg0.N) :
    (dat0 V c).flushed 2 t = ((cfg0.win 2).blk t).view.read (Elt Ideal) (rowsTimes (V c main_v8) (V c main_v1)) := by
  show (cfg0.win 2).cut (grid0.coords t) ((dat0 V c).after 2 t) = _
  rw [after0_2]
  unfold out0_2
  rw [View.canon_unit_zero zeros2]
  simp only [View.ld_unit_zero (S := S512x1024) zeros2, View.ld_unit_zero (S := S1024x1024) zeros2]
  obtain ⟨a0, a1, b0, b1⟩ := idx_in t
  obtain ⟨o0, o1⟩ := idx_out2 t
  funext j
  obtain ⟨p, q, rfl⟩ : ∃ (p : Fin 512) (q : Fin 1024), j = ix2 p q := ⟨j 0, j 1, eq_ix2 j⟩
  refine (Pay.proj_body _ _ p q).trans ?_
  rw [View.read_apply, rowsTimes_apply]
  refine Finset.sum_congr rfl fun k _ => ?_
  have hx : iblk0 V c 0 t (ix2 p k) = V c main_v8 (ix2 (⟨((((cfg0.win 2).blk t).view.emb (ix2 p q)) 0).val, ((((cfg0.win 2).blk t).view.emb (ix2 p q)) 0).isLt⟩ : Fin 16384) k) := by
    show V c main_v8 (((cfg0.win 0).blk t).view.emb (ix2 p k)) = _
    refine congrArg (V c main_v8) (funext fun a => Fin.ext ?_)
    match a with
    | ⟨0, _⟩ => show win0_0.index t (0 : Fin 2) * 512 + 1 * p.val = win0_2.index t (0 : Fin 2) * 512 + 1 * p.val; rw [a0, o0]
    | ⟨1, _⟩ => show win0_0.index t (1 : Fin 2) * 1024 + 1 * k.val = k.val; rw [a1]; omega
  have hw : iblk0 V c 1 t (ix2 k q) = V c main_v1 (ix2 k (⟨((((cfg0.win 2).blk t).view.emb (ix2 p q)) 1).val, ((((cfg0.win 2).blk t).view.emb (ix2 p q)) 1).isLt⟩ : Fin 1024)) := by
    show V c main_v1 (((cfg0.win 1).blk t).view.emb (ix2 k q)) = _
    refine congrArg (V c main_v1) (funext fun a => Fin.ext ?_)
    match a with
    | ⟨0, _⟩ => show win0_1.index t (0 : Fin 2) * 1024 + 1 * k.val = k.val; rw [b0]; omega
    | ⟨1, _⟩ => show win0_1.index t (1 : Fin 2) * 1024 + 1 * q.val = win0_2.index t (1 : Fin 2) * 1024 + 1 * q.val; rw [b1, o1]
  rw [hx, hw]

/-- The output array after the region: the product of the arrays it found. -/
theorem final (c : Dev nD) : (dat0 V c).arrAt 2 cfg0.N = rowsTimes (V c main_v8) (V c main_v1) :=
  (dat0 V c).arrAt_eq_of_cover 2 (rowsTimes (V c main_v8) (V c main_v1)) (fun t _ => flushed_eq V c t) cover2

end Cert.KernelIdeal.Reg0

end
-- ==== Proof.Region1.lean ====
/-
  Region 1 (the fused key and value projections) as functions of the arrays it finds: each of its two output arrays of
  16384 rows ends holding, at (r, e), the sum over k of the shared row operand's (r, k) times that output's transposed
  weights' (k, e). Point t computes rows 512·t … 512·t + 511 of both; the thirty-two blocks tile each array.
-/
import proofs.«160679_j1116691497080_2_alg».proof.Proof.Gen.KernelIdeal.Frame
import proofs.«160679_j1116691497080_2_alg».proof.Proof.LinearBody
import proofs.«160679_j1116691497080_2_alg».proof.Proof.Region0

set_option maxRecDepth 16384

noncomputable section

namespace Cert.KernelIdeal.Reg1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

variable (V : (c : Dev nD) → (b : Ref sig .tc) → Buf (Elt Ideal) ((c : Thread nD τ).loc b))

/-- The row operand's window moves with the outputs'; each weight window is the whole matrix at every point. -/
theorem idx_in : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Output window 3 moves down the rows with the grid point, and stays at column block 0. -/
theorem idx_out3 : ∀ t : Fin cfg1.N, win1_3.index t (0 : Fin 2) = t.val ∧ win1_3.index t (1 : Fin 2) = 0 :=
  (by decide +kernel : ∀ t : Fin grid1.N, _)

/-- An index of the array is in point `t`'s block iff each coordinate is in the block's range on its axis. -/
theorem mem_blk3 (t : Fin cfg1.N) (i : S16384x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v12_0).slice (win1_3.rect t)).set ↔ _
  rw [View.set_slice_whole, Rect.mem_set_unit]
  exact Iff.rfl

/-- Row r of the array lies in the block of point r / 512: the thirty-two blocks of 512 rows tile the 16384 rows. -/
theorem cover3 (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  refine ⟨⟨(i 0).val / 512, by show (i 0).val / 512 < 32; omega⟩, flush1_3 _, ?_⟩
  rw [mem_blk3]
  obtain ⟨e0, e1⟩ := idx_out3 ⟨(i 0).val / 512, by show (i 0).val / 512 < 32; omega⟩
  intro a
  match a with
  | ⟨0, _⟩ => show win1_3.index _ (0 : Fin 2) * 512 ≤ (i 0).val ∧ (i 0).val < win1_3.index _ (0 : Fin 2) * 512 + 512; rw [e0]; show (i 0).val / 512 * 512 ≤ _ ∧ _ < (i 0).val / 512 * 512 + 512; omega
  | ⟨1, _⟩ => show win1_3.index _ (1 : Fin 2) * 1024 ≤ (i 1).val ∧ (i 1).val < win1_3.index _ (1 : Fin 2) * 1024 + 1024; rw [e1]; omega

/-- Output window 4 moves down the rows with the grid point, and stays at column block 0. -/
theorem idx_out4 : ∀ t : Fin cfg1.N, win1_4.index t (0 : Fin 2) = t.val ∧ win1_4.index t (1 : Fin 2) = 0 :=
  (by decide +kernel : ∀ t : Fin grid1.N, _)

/-- An index of the array is in point `t`'s block iff each coordinate is in the block's range on its axis. -/
theorem mem_blk4 (t : Fin cfg1.N) (i : S16384x1024.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v12_1).slice (win1_4.rect t)).set ↔ _
  rw [View.set_slice_whole, Rect.mem_set_unit]
  exact Iff.rfl

/-- Row r of the array lies in the block of point r / 512: the thirty-two blocks of 512 rows tile the 16384 rows. -/
theorem cover4 (i : S16384x1024.Idx) : ∃ t : Fin cfg1.N, (cfg1.win 4).flush t = true ∧ i ∈ ((cfg1.win 4).blk t).view.set := by
  have hi0 : (i 0).val < 16384 := (i 0).isLt
  have hi1 : (i 1).val < 1024 := (i 1).isLt
  refine ⟨⟨(i 0).val / 512, by show (i 0).val / 512 < 32; omega⟩, flush1_4 _, ?_⟩
  rw [mem_blk4]
  obtain ⟨e0, e1⟩ := idx_out4 ⟨(i 0).val / 512, by show (i 0).val / 512 < 32; omega⟩
  intro a
  match a with
  | ⟨0, _⟩ => show win1_4.index _ (0 : Fin 2) * 512 ≤ (i 0).val ∧ (i 0).val < win1_4.index _ (0 : Fin 2) * 512 + 512; rw [e0]; show (i 0).val / 512 * 512 ≤ _ ∧ _ < (i 0).val / 512 * 512 + 512; omega
  | ⟨1, _⟩ => show win1_4.index _ (1 : Fin 2) * 1024 ≤ (i 1).val ∧ (i 1).val < win1_4.index _ (1 : Fin 2) * 1024 + 1024; rw [e1]; omega

/-- What point `t` writes back to output window 3 is block `t` of the product of the arrays the region finds. -/
theorem flushed_eq3 (c : Dev nD) (t : Fin cfg1.N) :
    (dat1 V c).flushed 3 t = ((cfg1.win 3).blk t).view.read (Elt Ideal) (Reg0.rowsTimes (V c main_v9) (V c main_v3)) := by
  show (cfg1.win 3).cut (grid1.coords t) ((dat1 V c).after 3 t) = _
  rw [after1_3]
  unfold out1_3
  rw [View.canon_unit_zero Reg0.zeros2]
  simp only [View.ld_unit_zero (S := S512x1024) Reg0.zeros2, View.ld_unit_zero (S := S1024x1024) Reg0.zeros2]
  obtain ⟨a0, a1, b0, b1, d0, d1⟩ := idx_in t
  obtain ⟨o0, o1⟩ := idx_out3 t
  funext j
  obtain ⟨p, q, rfl⟩ : ∃ (p : Fin 512) (q : Fin 1024), j = ix2 p q := ⟨j 0, j 1, eq_ix2 j⟩
  refine (Pay.proj_body_k _ _ p q).trans ?_
  rw [View.read_apply, Reg0.rowsTimes_apply]
  refine Finset.sum_congr rfl fun k _ => ?_
  have hx : iblk1 V c 0 t (ix2 p k) = V c main_v9 (ix2 (⟨((((cfg1.win 3).blk t).view.emb (ix2 p q)) 0).val, ((((cfg1.win 3).blk t).view.emb (ix2 p q)) 0).isLt⟩ : Fin 16384) k) := by
    show V c main_v9 (((cfg1.win 0).blk t).view.emb (ix2 p k)) = _
    refine congrArg (V c main_v9) (funext fun a => Fin.ext ?_)
    match a with
    | ⟨0, _⟩ => show win1_0.index t (0 : Fin 2) * 512 + 1 * p.val = win1_3.index t (0 : Fin 2) * 512 + 1 * p.val; rw [a0, o0]
    | ⟨1, _⟩ => show win1_0.index t (1 : Fin 2) * 1024 + 1 * k.val = k.val; rw [a1]; omega
  have hw : iblk1 V c 1 t (ix2 k q) = V c main_v3 (ix2 k (⟨((((cfg1.win 3).blk t).view.emb (ix2 p q)) 1).val, ((((cfg1.win 3).blk t).view.emb (ix2 p q)) 1).isLt⟩ : Fin 1024)) := by
    show V c main_v3 (((cfg1.win 1).blk t).view.emb (ix2 k q)) = _
    refine congrArg (V c main_v3) (funext fun a => Fin.ext ?_)
    match a with
    | ⟨0, _⟩ => show win1_1.index t (0 : Fin 2) * 1024 + 1 * k.val = k.val; rw [b0]; omega
    | ⟨1, _⟩ => show win1_1.index t (1 : Fin 2) * 1024 + 1 * q.val = win1_3.index t (1 : Fin 2) * 1024 + 1 * q.val; rw [b1, o1]
  rw [hx, hw]

/-- Output window 3's array after the region: the product of the arrays it found. -/
theorem final3 (c : Dev nD) : (dat1 V c).arrAt 3 cfg1.N = Reg0.rowsTimes (V c main_v9) (V c main_v3) :=
  (dat1 V c).arrAt_eq_of_cover 3 (Reg0.rowsTimes (V c main_v9) (V c main_v3)) (fun t _ => flushed_eq3 V c t) cover3

/-- What point `t` writes back to output window 4 is block `t` of the product of the arrays the region finds. -/
theorem flushed_eq4 (c : Dev nD) (t : Fin cfg1.N) :
    (dat1 V c).flushed 4 t = ((cfg1.win 4).blk t).view.read (Elt Ideal) (Reg0.rowsTimes (V c main_v9) (V c main_v5)) := by
  show (cfg1.win 4).cut (grid1.coords t) ((dat1 V c).after 4 t) = _
  rw [after1_4]
  unfold out1_4
  rw [View.canon_unit_zero Reg0.zeros2]
  simp only [View.ld_unit_zero (S := S512x1024) Reg0.zeros2, View.ld_unit_zero (S := S1024x1024) Reg0.zeros2]
  obtain ⟨a0, a1, b0, b1, d0, d1⟩ := idx_in t
  obtain ⟨o0, o1⟩ := idx_out4 t
  funext j
  obtain ⟨p, q, rfl⟩ : ∃ (p : Fin 512) (q : Fin 1024), j = ix2 p q := ⟨j 0, j 1, eq_ix2 j⟩
  refine (Pay.proj_body_v _ _ p q).trans ?_
  rw [View.read_apply, Reg0.rowsTimes_apply]
  refine Finset.sum_congr rfl fun k _ => ?_
  have hx : iblk1 V c 0 t (ix2 p k) = V c main_v9 (ix2 (⟨((((cfg1.win 4).blk t).view.emb (ix2 p q)) 0).val, ((((cfg1.win 4).blk t).view.emb (ix2 p q)) 0).isLt⟩ : Fin 16384) k) := by
    show V c main_v9 (((cfg1.win 0).blk t).view.emb (ix2 p k)) = _
    refine congrArg (V c main_v9) (funext fun a => Fin.ext ?_)
    match a with
    | ⟨0, _⟩ => show win1_0.index t (0 : Fin 2) * 512 + 1 * p.val = win1_4.index t (0 : Fin 2) * 512 + 1 * p.val; rw [a0, o0]
    | ⟨1, _⟩ => show win1_0.index t (1 : Fin 2) * 1024 + 1 * k.val = k.val; rw [a1]; omega
  have hw : iblk1 V c 2 t (ix2 k q) = V c main_v5 (ix2 k (⟨((((cfg1.win 4).blk t).view.emb (ix2 p q)) 1).val, ((((cfg1.win 4).blk t).view.emb (ix2 p q)) 1).isLt⟩ : Fin 1024)) := by
    show V c main_v5 (((cfg1.win 2).blk t).view.emb (ix2 k q)) = _
    refine congrArg (V c main_v5) (funext fun a => Fin.ext ?_)
    match a with
    | ⟨0, _⟩ => show win1_2.index t (0 : Fin 2) * 1024 + 1 * k.val = k.val; rw [d0]; omega
    | ⟨1, _⟩ => show win1_2.index t (1 : Fin 2) * 1024 + 1 * q.val = win1_4.index t (1 : Fin 2) * 1024 + 1 * q.val; rw [d1, o1]
  rw [hx, hw]

/-- Output window 4's array after the region: the product of the arrays it found. -/
theorem final4 (c : Dev nD) : (dat1 V c).arrAt 4 cfg1.N = Reg0.rowsTimes (V c main_v9) (V c main_v5) :=
  (dat1 V c).arrAt_eq_of_cover 4 (Reg0.rowsTimes (V c main_v9) (V c main_v5)) (fun t _ => flushed_eq4 V c t) cover4

end Cert.KernelIdeal.Reg1

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.Spec.lean ====
/-
  The layer's two non-linear stages as functions of one row, on the extended reals.

  Softmax attention for one query row against 2048 keys of width 128: the scores are the query's inner products with the keys
  times the scale (the float word of 2⁻⁵), the row maximum is the fold of max from −∞ over the scores, each weight is
  exp (score − maximum), each share the weight over the sum of the weights, and the output at column c is the sum over the
  keys of share × value. Layer normalisation of one row of width 1024: the mean and the mean square deviation are sums
  divided by the float word of 1024, and the output is (y − mean) · rsqrt (variance + ε) · γ + β with ε the float word
  nearest 10⁻⁵.
-/
import Idealize.ShloMosaic.PureOps.Ideal
import Idealize.ShloMosaic.PureOps.Ideal.Laws

noncomputable section

namespace Cert.Spec

open Idealize.ShloMosaic

/-- The scores of one query row: inner products with each key, scaled. -/
def score (q : Fin 128 → EReal) (K : Fin 2048 → Fin 128 → EReal) (j : Fin 2048) : EReal :=
  (∑ d : Fin 128, q d * K j d) * Ideal.ofBits .f32 0x3D000000#32

/-- The row maximum: the fold of max over the 2048 scores from −∞. -/
def rowMax (s : Fin 2048 → EReal) : EReal :=
  (Finset.univ : Finset (Fin 2048)).fold max (Ideal.ofBits .f32 0xFF800000#32) s

/-- The unnormalised weight of key j. -/
def weight (s : Fin 2048 → EReal) (j : Fin 2048) : EReal := Ideal.exp (s j - rowMax s)

/-- The normalised share of key j. -/
def share (s : Fin 2048 → EReal) (j : Fin 2048) : EReal := Ideal.div (weight s j) (∑ j' : Fin 2048, weight s j')

/-- One row of attention output at column c. -/
def attend (q : Fin 128 → EReal) (K Vv : Fin 2048 → Fin 128 → EReal) (c : Fin 128) : EReal :=
  ∑ j : Fin 2048, share (score q K) j * Vv j c

/-- The mean of a row of width 1024. -/
def mean (y : Fin 1024 → EReal) : EReal := Ideal.div (∑ e : Fin 1024, y e) (Ideal.ofBits .f32 0x44800000#32)

/-- The mean square deviation of a row. -/
def variance (y : Fin 1024 → EReal) : EReal :=
  Ideal.div (∑ e : Fin 1024, (y e - mean y) * (y e - mean y)) (Ideal.ofBits .f32 0x44800000#32)

/-- Layer normalisation of one row at column e. -/
def layerNorm (y g b : Fin 1024 → EReal) (e : Fin 1024) : EReal :=
  (y e - mean y) * Ideal.rsqrt (variance y + Ideal.ofBits .f32 0x3727C5AC#32) * g e + b e

/-- The maximum with −∞ of a fold of max that starts from −∞ is the fold. -/
theorem max_init_fold (b : EReal) (s : Fin 2048 → EReal) :
    max b ((Finset.univ : Finset (Fin 2048)).fold max b s) = (Finset.univ : Finset (Fin 2048)).fold max b s :=
  max_eq_right (by rw [Finset.le_fold_max]; exact Or.inl le_rfl)

end Cert.Spec

end
-- ==== Proof.AttnBody.lean ====
/-
  The attention kernel's body at an entry, at the ideal values. The body views its [1, n, 128] blocks as [n, 128] matrices,
  forms the 512 × 2048 scores (queries against keys, rows by rows, times the scale), takes each row's maximum, the
  exponentials of the differences, each row's sum, the quotients, and multiplies by the values. At row p and column c the
  stored value is one row of softmax attention: the query row p against all keys and values of the block.
-/
import proofs.«160679_j1116691497080_2_alg».proof.Proof.MatmulRead
import proofs.«160679_j1116691497080_2_alg».proof.Proof.LibKeepdims
import proofs.«160679_j1116691497080_2_alg».proof.Proof.LibRowMax
import proofs.«160679_j1116691497080_2_alg».proof.Proof.Spec

set_option maxRecDepth 16384

noncomputable section

namespace Cert.KernelIdeal.Pay

open Idealize.ShloMosaic Idealize.SL.Sem Idealize.ShloMosaic.ValueIdx
open Cert.KernelIdeal Cert.KernelIdeal.Gen
open Cert.KernelIdeal.Facts₀ Cert.KernelIdeal.Facts

/-- A [1, 512, 128] block viewed as a [512, 128] matrix reads (p, c) at (0, p, c). -/
theorem view_q (x : Vec Ideal S1x512x128 .bf16) (p : Fin 512) (c : Fin 128) :
    shapeCast S512x128 x Facts₀.shapeCasts_S1x512x128_S512x128 (ix2 p c) = x (ix3 (0 : Fin 1) p c) :=
  shapeCast_apply x _ _ _ (by
    rw [Shape.rowMajor_val_three, Shape.rowMajor_val_two]
    show ((0 : ℕ) * 512 + p.val) * 128 + c.val = p.val * 128 + c.val
    omega)

/-- A [1, 2048, 128] block viewed as a [2048, 128] matrix reads (j, c) at (0, j, c). -/
theorem view_kv (x : Vec Ideal S1x2048x128 .bf16) (j : Fin 2048) (c : Fin 128) :
    shapeCast S2048x128 x Facts₀.shapeCasts_S1x2048x128_S2048x128 (ix2 j c) = x (ix3 (0 : Fin 1) j c) :=
  shapeCast_apply x _ _ _ (by
    rw [Shape.rowMajor_val_three, Shape.rowMajor_val_two]
    show ((0 : ℕ) * 2048 + j.val) * 128 + c.val = j.val * 128 + c.val
    omega)

/-- A [512, 128] matrix stored as a [1, 512, 128] block reads (0, p, c) at (p, c). -/
theorem view_out (y : FVec Ideal S512x128 .bf16) (p : Fin 512) (c : Fin 128) :
    shapeCast S1x512x128 y Facts₀.shapeCasts_S512x128_S1x512x128 (ix3 (0 : Fin 1) p c) = y (ix2 p c) :=
  shapeCast_apply y _ _ _ (by
    rw [Shape.rowMajor_val_three, Shape.rowMajor_val_two]
    show p.val * 128 + c.val = ((0 : ℕ) * 512 + p.val) * 128 + c.val
    omega)

/-- The rows' softmax as the body computes it from the score matrix. -/
def softmaxRows (s : FVec Ideal S512x2048 .f32) : FVec Ideal S512x2048 .f32 :=
  have v9 : FVec Ideal S512 .f32 := multiReduction .maximumf [1] S512 s 0xFF800000#32 Facts₀.reduces_S512x2048_S512 (.inl rfl) rfl
  have v10 : FVec Ideal S512x1 .f32 := shapeCast S512x1 v9 Facts₀.shapeCasts_S512_S512x1
  have v11 : FVec Ideal S512x2048 .f32 := broadcastTo S512x2048 v10 Facts₀.broadcasts_S512x1_S512x2048
  have v12 : FVec Ideal S512x2048 .f32 := subf s v11
  have v13 : FVec Ideal S512x2048 .f32 := exp v12
  have v14 : FVec Ideal S512 .f32 := multiReduction .add [1] S512 v13 0x00000000#32 Facts₀.reduces_S512x2048_S512 (.inl rfl) rfl
  have v15 : FVec Ideal S512x1 .f32 := shapeCast S512x1 v14 Facts₀.shapeCasts_S512_S512x1
  have v16 : FVec Ideal S512x2048 .f32 := broadcastTo S512x2048 v15 Facts₀.broadcasts_S512x1_S512x2048
  divf v13 v16

/-- A row's maximum, kept as a column and spread back along the row, at (p, j): the fold of max over row p. -/
theorem rowMax_spread (s : FVec Ideal S512x2048 .f32) (p : Fin 512) (j : Fin 2048) :
    broadcastTo S512x2048 (shapeCast S512x1 (multiReduction .maximumf [1] S512 s 0xFF800000#32 Facts₀.reduces_S512x2048_S512 (.inl rfl) rfl) Facts₀.shapeCasts_S512_S512x1) Facts₀.broadcasts_S512x1_S512x2048 (ix2 p j)
      = Spec.rowMax (fun j' => s (ix2 p j')) :=
  (Keepdims.broadcastTo_a1_ab_apply _ Facts₀.broadcasts_S512x1_S512x2048 p j).trans
    ((Keepdims.shapeCast_a_a1_apply _ Facts₀.shapeCasts_S512_S512x1 p (0 : Fin 1)).trans
      (RowMax.rowMax_apply s 0xFF800000#32 Facts₀.reduces_S512x2048_S512 (.inl rfl) rfl p))

/-- The weights exp (score − row maximum) at (p, j). -/
theorem weight_apply (s : FVec Ideal S512x2048 .f32) (p : Fin 512) (j : Fin 2048) :
    exp (subf s (broadcastTo S512x2048 (shapeCast S512x1 (multiReduction .maximumf [1] S512 s 0xFF800000#32 Facts₀.reduces_S512x2048_S512 (.inl rfl) rfl) Facts₀.shapeCasts_S512_S512x1) Facts₀.broadcasts_S512x1_S512x2048)) (ix2 p j)
      = Spec.weight (fun j' => s (ix2 p j')) j := by
  show Ideal.exp (s (ix2 p j) - _) = Ideal.exp (s (ix2 p j) - Spec.rowMax (fun j' => s (ix2 p j')))
  rw [rowMax_spread]

/-- The rows' softmax at (p, j): the share of key j in row p. -/
theorem softmaxRows_apply (s : FVec Ideal S512x2048 .f32) (p : Fin 512) (j : Fin 2048) :
    softmaxRows s (ix2 p j) = Spec.share (fun j' => s (ix2 p j')) j := by
  unfold softmaxRows
  show Ideal.div (exp (subf s _) (ix2 p j)) (broadcastTo S512x2048 (shapeCast S512x1 (multiReduction .add [1] S512 (exp (subf s _)) 0x00000000#32 Facts₀.reduces_S512x2048_S512 (.inl rfl) rfl) Facts₀.shapeCasts_S512_S512x1) Facts₀.broadcasts_S512x1_S512x2048 (ix2 p j)) = _
  unfold Spec.share
  refine congr (congrArg Ideal.div (weight_apply s p j)) ?_
  refine (Keepdims.broadcastTo_a1_ab_apply _ Facts₀.broadcasts_S512x1_S512x2048 p j).trans ?_
  refine (Keepdims.rowSumKeep_apply _ 0x00000000#32 Facts₀.reduces_S512x2048_S512 (.inl rfl) rfl Facts₀.shapeCasts_S512_S512x1 p (0 : Fin 1)).trans ?_
  exact Finset.sum_congr rfl fun j' _ => weight_apply s p j'

/-- The scores at (p, j): the query row p against key j, scaled. -/
theorem scores_apply (q2 : FVec Ideal S512x128 .bf16) (k2 : FVec Ideal S2048x128 .bf16) (p : Fin 512) (j : Fin 2048) :
    mulf (matmul dot_S512x128_S2048x128_S512x2048_1_1_0_0_n_n none q2 k2 (constant (F := Ideal) S512x2048 .f32 0x00000000#32))
        (broadcast S512x2048 (Scalar.ofBits (F := Ideal) .f32 0x3D000000#32)) (ix2 p j)
      = Spec.score (fun d => q2 (ix2 p d)) (fun j' d => k2 (ix2 j' d)) j := by
  show matmul dot_S512x128_S2048x128_S512x2048_1_1_0_0_n_n none q2 k2 (constant (F := Ideal) S512x2048 .f32 0x00000000#32) (ix2 p j) * Ideal.ofBits .f32 0x3D000000#32 = _
  rw [matmul_rows_rows_128]
  rfl

/-- The stored block at (0, p, c): one row of softmax attention. -/
theorem attn_body (q : Vec Ideal S1x512x128 .bf16) (k v : Vec Ideal S1x2048x128 .bf16) (p : Fin 512) (c : Fin 128) :
    k2_pay1 (F := Ideal) q k v (ix3 (0 : Fin 1) p c)
      = Spec.attend (fun d => q (ix3 (0 : Fin 1) p d)) (fun j d => k (ix3 (0 : Fin 1) j d)) (fun j d => v (ix3 (0 : Fin 1) j d)) c := by
  have e : k2_pay1 (F := Ideal) q k v = shapeCast S1x512x128
      (matmul dot_S512x2048_S2048x128_S512x128_1_0_0_1_n_n none
        (softmaxRows (mulf (matmul dot_S512x128_S2048x128_S512x2048_1_1_0_0_n_n none (shapeCast S512x128 q Facts₀.shapeCasts_S1x512x128_S512x128) (shapeCast S2048x128 k Facts₀.shapeCasts_S1x2048x128_S2048x128) (constant (F := Ideal) S512x2048 .f32 0x00000000#32))
          (broadcast S512x2048 (Scalar.ofBits (F := Ideal) .f32 0x3D000000#32))))
        (shapeCast S2048x128 v Facts₀.shapeCasts_S1x2048x128_S2048x128) (constant (F := Ideal) S512x128 .f32 0x00000000#32))
      Facts₀.shapeCasts_S512x128_S1x512x128 := rfl
  rw [e, view_out, matmul_rows_cols_2048 (φ₁ := .f32) (φ₂ := .bf16)]
  unfold Spec.attend
  refine Finset.sum_congr rfl fun j _ => ?_
  rw [softmaxRows_apply, view_kv]
  refine congrArg (· * _) (congrArg (fun s => Spec.share s j) (funext fun j' => ?_))
  rw [scores_apply]
  unfold Spec.score
  refine congrArg (· * _) (Finset.sum_congr rfl fun d _ => ?_)
  show shapeCast S512x128 q _ (ix2 p d) * shapeCast S2048x128 k _ (ix2 j' d) = q (ix3 (0 : Fin 1) p d) * k (ix3 (0 : Fin 1) j' d)
  rw [view_q, view_kv]

end Cert.KernelIdeal.Pay

end
-- ==== Proof.Region2.lean ====
/-
  Region 2 (attention) as ONE function of the three arrays it finds, each [64, 2048, 128]: the output array ends holding, at
  (g, s, c), one row of softmax attention — query row (g, s, ·) against the 2048 keys and values of group g — at column c.
  Point t of the 64 × 4 grid is group t / 4 and the 512 query rows from 512·(t mod 4) on; it reads those query rows and the
  whole of the group's keys and values, and the 256 blocks tile the output array.
-/
import proofs.«160679_j1116691497080_2_alg».proof.Proof.Gen.KernelIdeal.Frame
import proofs.«160679_j1116691497080_2_alg».proof.Proof.AttnBody

set_option maxRecDepth 16384

noncomputable section

namespace Cert.KernelIdeal.Reg2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-- Attention over [64, 2048, 128] arrays, entry by entry. -/
def attnArr (Q K Vv : S64x2048x128.Idx → EReal) : S64x2048x128.Idx → EReal :=
  fun i => Spec.attend (fun d => Q (ix3 (⟨(i 0).val, (i 0).isLt⟩ : Fin 64) (⟨(i 1).val, (i 1).isLt⟩ : Fin 2048) d))
    (fun j d => K (ix3 (⟨(i 0).val, (i 0).isLt⟩ : Fin 64) j d)) (fun j d => Vv (ix3 (⟨(i 0).val, (i 0).isLt⟩ : Fin 64) j d))
    (⟨(i 2).val, (i 2).isLt⟩ : Fin 128)

theorem attnArr_apply (Q K Vv : S64x2048x128.Idx → EReal) (i : S64x2048x128.Idx) :
    attnArr Q K Vv i = Spec.attend (fun d => Q (ix3 (⟨(i 0).val, (i 0).isLt⟩ : Fin 64) (⟨(i 1).val, (i 1).isLt⟩ : Fin 2048) d))
      (fun j d => K (ix3 (⟨(i 0).val, (i 0).isLt⟩ : Fin 64) j d)) (fun j d => Vv (ix3 (⟨(i 0).val, (i 0).isLt⟩ : Fin 64) j d))
      (⟨(i 2).val, (i 2).isLt⟩ : Fin 128) := rfl

theorem attend_congr {q q' : Fin 128 → EReal} {K K' Vv Vv' : Fin 2048 → Fin 128 → EReal} {c c' : Fin 128}
    (hq : q = q') (hK : K = K') (hV : Vv = Vv') (hc : c = c') : Spec.attend q K Vv c = Spec.attend q' K' Vv' c' := by
  subst hq hK hV hc; rfl

theorem zeros3 : (![0, 0, 0] : Fin 3 → Nat) = fun _ => 0 := funext fun a => by fin_cases a <;> rfl

variable (V : (c : Dev nD) → (b : Ref sig .tc) → Buf (Elt Ideal) ((c : Thread nD τ).loc b))

/-- The index maps over the grid: the group is t / 4, the query tile t mod 4; keys and values take the whole group. -/
theorem idx_all : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 3) = t.val / 4 ∧ win2_2.index t (1 : Fin 3) = 0 ∧ win2_2.index t (2 : Fin 3) = 0
    ∧ win2_3.index t (0 : Fin 3) = t.val / 4 ∧ win2_3.index t (1 : Fin 3) = t.val % 4 ∧ win2_3.index t (2 : Fin 3) = 0 :=
  (by decide +kernel : ∀ t : Fin grid2.N, _)

/-- An index of the array is in point `t`'s block iff each coordinate is in the block's range on its axis. -/
theorem mem_blk (t : Fin cfg2.N) (i : S64x2048x128.Idx) :
    i ∈ ((cfg2.win 3).blk t).view.set ↔ ∀ a : Fin 3, win2_3.index t a * S1x512x128.size a ≤ (i a).val ∧ (i a).val < win2_3.index t a * S1x512x128.size a + S1x512x128.size a := by
  show i ∈ ((View.whole main_v18).slice (win2_3.rect t)).set ↔ _
  rw [View.set_slice_whole, Rect.mem_set_unit]
  exact Iff.rfl

/-- Entry (g, s, c) lies in the block of point 4·g + s / 512. -/
theorem cover (i : S64x2048x128.Idx) : ∃ t : Fin cfg2.N, (cfg2.win 3).flush t = true ∧ i ∈ ((cfg2.win 3).blk t).view.set := by
  have hi0 : (i 0).val < 64 := (i 0).isLt
  have hi1 : (i 1).val < 2048 := (i 1).isLt
  have hi2 : (i 2).val < 128 := (i 2).isLt
  have ht : (i 0).val * 4 + (i 1).val / 512 < 256 := by omega
  refine ⟨⟨(i 0).val * 4 + (i 1).val / 512, ht⟩, flush2_3 _, ?_⟩
  rw [mem_blk]
  obtain ⟨-, -, -, -, -, -, -, -, -, e0, e1, e2⟩ := idx_all ⟨(i 0).val * 4 + (i 1).val / 512, ht⟩
  intro a
  match a with
  | ⟨0, _⟩ => show win2_3.index _ (0 : Fin 3) * 1 ≤ (i 0).val ∧ (i 0).val < win2_3.index _ (0 : Fin 3) * 1 + 1; rw [e0]; show ((i 0).val * 4 + (i 1).val / 512) / 4 * 1 ≤ _ ∧ _ < ((i 0).val * 4 + (i 1).val / 512) / 4 * 1 + 1; omega
  | ⟨1, _⟩ => show win2_3.index _ (1 : Fin 3) * 512 ≤ (i 1).val ∧ (i 1).val < win2_3.index _ (1 : Fin 3) * 512 + 512; rw [e1]; show ((i 0).val * 4 + (i 1).val / 512) % 4 * 512 ≤ _ ∧ _ < ((i 0).val * 4 + (i 1).val / 512) % 4 * 512 + 512; omega
  | ⟨2, _⟩ => show win2_3.index _ (2 : Fin 3) * 128 ≤ (i 2).val ∧ (i 2).val < win2_3.index _ (2 : Fin 3) * 128 + 128; rw [e2]; omega

set_option maxHeartbeats 1600000 in
/-- What point `t` writes back is block `t` of attention over the arrays the region finds. -/
theorem flushed_eq (c : Dev nD) (t : Fin cfg2.N) :
    (dat2 V c).flushed 3 t = ((cfg2.win 3).blk t).view.read (Elt Ideal) (attnArr (V c main_v15) (V c main_v16) (V c main_v17)) := by
  show (cfg2.win 3).cut (grid2.coords t) ((dat2 V c).after 3 t) = _
  rw [after2_3]
  unfold out2_3
  rw [View.canon_unit_zero zeros3]
  simp only [View.ld_unit_zero (S := S1x512x128) zeros3, View.ld_unit_zero (S := S1x2048x128) zeros3]
  obtain ⟨a0, a1, a2, b0, b1, b2, d0, d1, d2, o0, o1, o2⟩ := idx_all t
  funext j
  obtain ⟨u, p, x, rfl⟩ : ∃ (u : Fin 1) (p : Fin 512) (x : Fin 128), j = ix3 u p x := ⟨j 0, j 1, j 2, eq_ix3 j⟩
  obtain rfl : u = 0 := Subsingleton.elim _ _
  refine (Pay.attn_body _ _ _ p x).trans ?_
  show _ = attnArr (V c main_v15) (V c main_v16) (V c main_v17) (((cfg2.win 3).blk t).view.emb (ix3 (0 : Fin 1) p x))
  refine attend_congr (funext fun d => ?_) (funext fun j' => funext fun d => ?_) (funext fun j' => funext fun d => ?_) (Fin.ext ?_)
  · show V c main_v15 (((cfg2.win 0).blk t).view.emb (ix3 (0 : Fin 1) p d)) = _
    refine congrArg (V c main_v15) (funext fun a => Fin.ext ?_)
    match a with
    | ⟨0, _⟩ => show win2_0.index t (0 : Fin 3) * 1 + 1 * 0 = win2_3.index t (0 : Fin 3) * 1 + 1 * 0; rw [a0, o0]
    | ⟨1, _⟩ => show win2_0.index t (1 : Fin 3) * 512 + 1 * p.val = win2_3.index t (1 : Fin 3) * 512 + 1 * p.val; rw [a1, o1]
    | ⟨2, _⟩ => show win2_0.index t (2 : Fin 3) * 128 + 1 * d.val = d.val; rw [a2]; omega
  · show V c main_v16 (((cfg2.win 1).blk t).view.emb (ix3 (0 : Fin 1) j' d)) = _
    refine congrArg (V c main_v16) (funext fun a => Fin.ext ?_)
    match a with
    | ⟨0, _⟩ => show win2_1.index t (0 : Fin 3) * 1 + 1 * 0 = win2_3.index t (0 : Fin 3) * 1 + 1 * 0; rw [b0, o0]
    | ⟨1, _⟩ => show win2_1.index t (1 : Fin 3) * 2048 + 1 * j'.val = j'.val; rw [b1]; omega
    | ⟨2, _⟩ => show win2_1.index t (2 : Fin 3) * 128 + 1 * d.val = d.val; rw [b2]; omega
  · show V c main_v17 (((cfg2.win 2).blk t).view.emb (ix3 (0 : Fin 1) j' d)) = _
    refine congrArg (V c main_v17) (funext fun a => Fin.ext ?_)
    match a with
    | ⟨0, _⟩ => show win2_2.index t (0 : Fin 3) * 1 + 1 * 0 = win2_3.index t (0 : Fin 3) * 1 + 1 * 0; rw [d0, o0]
    | ⟨1, _⟩ => show win2_2.index t (1 : Fin 3) * 2048 + 1 * j'.val = j'.val; rw [d1]; omega
    | ⟨2, _⟩ => show win2_2.index t (2 : Fin 3) * 128 + 1 * d.val = d.val; rw [d2]; omega
  · show x.val = win2_3.index t (2 : Fin 3) * 128 + 1 * x.val; rw [o2]; omega

/-- The output array after the region: attention over the arrays it found. -/
theorem final (c : Dev nD) : (dat2 V c).arrAt 3 cfg2.N = attnArr (V c main_v15) (V c main_v16) (V c main_v17) :=
  (dat2 V c).arrAt_eq_of_cover 3 (attnArr (V c main_v15) (V c main_v16) (V c main_v17)) (fun t _ => flushed_eq V c t) cover

end Cert.KernelIdeal.Reg2

end
-- ==== Proof.LnBody.lean ====
/-
  The output kernel's body at an entry, at the ideal values: the block of attention rows times the whole transposed output
  weights, plus the bias row, plus the residual block; then each row's layer normalisation — the row's mean (its sum over
  the float word of 1024), the centred row, the mean of its squares, the reciprocal square root of that plus ε, and the
  scale and shift rows. At (p, e) the stored value is the layer normalisation of row p of the sum, at column e.
-/
import proofs.«160679_j1116691497080_2_alg».proof.Proof.MatmulRead
import proofs.«160679_j1116691497080_2_alg».proof.Proof.LibKeepdims
import proofs.«160679_j1116691497080_2_alg».proof.Proof.Spec

set_option maxRecDepth 16384

noncomputable section

namespace Cert.KernelIdeal.Pay

open Idealize.ShloMosaic Idealize.SL.Sem Idealize.ShloMosaic.ValueIdx
open Cert.KernelIdeal Cert.KernelIdeal.Gen
open Cert.KernelIdeal.Facts₀ Cert.KernelIdeal.Facts

/-- A [1, 1024] row spread down 512 rows reads, at (p, e), the row's entry e. -/
theorem spread_row (x : FVec Ideal S1x1024 .f32) (p : Fin 512) (e : Fin 1024) :
    broadcastTo S512x1024 x Facts₀.broadcasts_S1x1024_S512x1024 (ix2 p e) = x (ix2 (0 : Fin 1) e) := by
  refine broadcastTo_apply x _ (ix2 p e) (ix2 (0 : Fin 1) e) fun ax => ?_
  match ax with
  | ⟨0, _⟩ => rfl
  | ⟨1, _⟩ => rfl

/-- Each row's mean, kept as a column. -/
def meanCol (y : FVec Ideal S512x1024 .f32) : FVec Ideal S512x1 .f32 :=
  divf (shapeCast S512x1 (multiReduction .add [1] S512 y 0x00000000#32 Facts₀.reduces_S512x1024_S512 (.inl rfl) rfl) Facts₀.shapeCasts_S512_S512x1)
    (broadcast S512x1 (Scalar.ofBits (F := Ideal) .f32 0x44800000#32))

/-- The rows centred at their means. -/
def centred (y : FVec Ideal S512x1024 .f32) : FVec Ideal S512x1024 .f32 :=
  subf y (broadcastTo S512x1024 (meanCol y) Facts₀.broadcasts_S512x1_S512x1024)

/-- Each row's mean square deviation, kept as a column. -/
def varCol (y : FVec Ideal S512x1024 .f32) : FVec Ideal S512x1 .f32 :=
  divf (shapeCast S512x1 (multiReduction .add [1] S512 (mulf (centred y) (centred y)) 0x00000000#32 Facts₀.reduces_S512x1024_S512 (.inl rfl) rfl) Facts₀.shapeCasts_S512_S512x1)
    (broadcast S512x1 (Scalar.ofBits (F := Ideal) .f32 0x44800000#32))

/-- The rows' layer normalisation as the body computes it. -/
def lnRows (y : FVec Ideal S512x1024 .f32) (g b : Vec Ideal S1x1024 .f32) : FVec Ideal S512x1024 .f32 :=
  addf (mulf (mulf (centred y)
      (broadcastTo S512x1024 (rsqrt (addf (varCol y) (broadcast S512x1 (Scalar.ofBits (F := Ideal) .f32 0x3727C5AC#32)))) Facts₀.broadcasts_S512x1_S512x1024))
      (broadcastTo S512x1024 (shapeCast S1x1024 g Facts₀.shapeCasts_S1x1024_S1x1024) Facts₀.broadcasts_S1x1024_S512x1024))
    (broadcastTo S512x1024 (shapeCast S1x1024 b Facts₀.shapeCasts_S1x1024_S1x1024) Facts₀.broadcasts_S1x1024_S512x1024)

theorem meanCol_apply (y : FVec Ideal S512x1024 .f32) (p : Fin 512) (u : Fin 1) :
    meanCol y (ix2 p u) = Spec.mean (fun e => y (ix2 p e)) := by
  show Ideal.div (shapeCast S512x1 _ Facts₀.shapeCasts_S512_S512x1 (ix2 p u)) (Ideal.ofBits .f32 0x44800000#32) = _
  unfold Spec.mean
  refine congrArg (Ideal.div · _) ?_
  exact Keepdims.rowSumKeep_apply y 0x00000000#32 Facts₀.reduces_S512x1024_S512 (.inl rfl) rfl Facts₀.shapeCasts_S512_S512x1 p u

theorem centred_apply (y : FVec Ideal S512x1024 .f32) (p : Fin 512) (e : Fin 1024) :
    centred y (ix2 p e) = y (ix2 p e) - Spec.mean (fun e' => y (ix2 p e')) := by
  show y (ix2 p e) - broadcastTo S512x1024 (meanCol y) Facts₀.broadcasts_S512x1_S512x1024 (ix2 p e) = _
  rw [Keepdims.broadcastTo_a1_ab_apply, meanCol_apply]

theorem varCol_apply (y : FVec Ideal S512x1024 .f32) (p : Fin 512) (u : Fin 1) :
    varCol y (ix2 p u) = Spec.variance (fun e => y (ix2 p e)) := by
  show Ideal.div (shapeCast S512x1 _ Facts₀.shapeCasts_S512_S512x1 (ix2 p u)) (Ideal.ofBits .f32 0x44800000#32) = _
  unfold Spec.variance
  refine congrArg (Ideal.div · _) ?_
  refine (Keepdims.rowSumKeep_apply (mulf (centred y) (centred y)) 0x00000000#32 Facts₀.reduces_S512x1024_S512 (.inl rfl) rfl Facts₀.shapeCasts_S512_S512x1 p u).trans ?_
  refine Finset.sum_congr rfl fun e _ => ?_
  show centred y (ix2 p e) * centred y (ix2 p e) = _
  rw [centred_apply]

/-- The rows' layer normalisation at (p, e). -/
theorem lnRows_apply (y : FVec Ideal S512x1024 .f32) (g b : Vec Ideal S1x1024 .f32) (p : Fin 512) (e : Fin 1024) :
    lnRows y g b (ix2 p e)
      = Spec.layerNorm (fun e' => y (ix2 p e')) (fun e' => g (ix2 (0 : Fin 1) e')) (fun e' => b (ix2 (0 : Fin 1) e')) e := by
  show centred y (ix2 p e)
      * broadcastTo S512x1024 (rsqrt (addf (varCol y) (broadcast S512x1 (Scalar.ofBits (F := Ideal) .f32 0x3727C5AC#32)))) Facts₀.broadcasts_S512x1_S512x1024 (ix2 p e)
      * broadcastTo S512x1024 (shapeCast S1x1024 g Facts₀.shapeCasts_S1x1024_S1x1024) Facts₀.broadcasts_S1x1024_S512x1024 (ix2 p e)
      + broadcastTo S512x1024 (shapeCast S1x1024 b Facts₀.shapeCasts_S1x1024_S1x1024) Facts₀.broadcasts_S1x1024_S512x1024 (ix2 p e) = _
  rw [centred_apply, Keepdims.broadcastTo_a1_ab_apply, spread_row, spread_row, shapeCast_self, shapeCast_self]
  show _ * Ideal.rsqrt (varCol y (ix2 p (0 : Fin 1)) + Ideal.ofBits .f32 0x3727C5AC#32) * _ + _ = _
  rw [varCol_apply]
  rfl

/-- The stored block at (p, e): the layer normalisation of row p of (attention rows × weights + bias + residual). -/
theorem ln_body (a : Vec Ideal S512x1024 .bf16) (w : Vec Ideal S1024x1024 .bf16) (bias : Vec Ideal S1x1024 .f32)
    (res : Vec Ideal S512x1024 .f32) (g b : Vec Ideal S1x1024 .f32) (p : Fin 512) (e : Fin 1024) :
    k3_pay1 (F := Ideal) a w bias res g b (ix2 p e)
      = Spec.layerNorm (fun e' => (∑ k : Fin 1024, a (ix2 p k) * w (ix2 k e')) + bias (ix2 (0 : Fin 1) e') + res (ix2 p e'))
          (fun e' => g (ix2 (0 : Fin 1) e')) (fun e' => b (ix2 (0 : Fin 1) e')) e := by
  have h : k3_pay1 (F := Ideal) a w bias res g b = lnRows
      (addf (addf (matmul dot_S512x1024_S1024x1024_S512x1024_1_0_0_1_n_n none (shapeCast S512x1024 a Facts₀.shapeCasts_S512x1024_S512x1024) (shapeCast S1024x1024 w Facts₀.shapeCasts_S1024x1024_S1024x1024) (constant (F := Ideal) S512x1024 .f32 0x00000000#32))
        (broadcastTo S512x1024 (shapeCast S1x1024 bias Facts₀.shapeCasts_S1x1024_S1x1024) Facts₀.broadcasts_S1x1024_S512x1024))
        (shapeCast S512x1024 res Facts₀.shapeCasts_S512x1024_S512x1024)) g b := rfl
  rw [h, lnRows_apply]
  refine congrArg (fun y => Spec.layerNorm y _ _ e) (funext fun e' => ?_)
  show (matmul (F := Ideal) dot_S512x1024_S1024x1024_S512x1024_1_0_0_1_n_n none (shapeCast S512x1024 a Facts₀.shapeCasts_S512x1024_S512x1024) (shapeCast S1024x1024 w Facts₀.shapeCasts_S1024x1024_S1024x1024) (constant (F := Ideal) S512x1024 .f32 0x00000000#32) (ix2 p e') : EReal)
      + broadcastTo S512x1024 (shapeCast S1x1024 bias Facts₀.shapeCasts_S1x1024_S1x1024) Facts₀.broadcasts_S1x1024_S512x1024 (ix2 p e') + shapeCast S512x1024 res Facts₀.shapeCasts_S512x1024_S512x1024 (ix2 p e') = _
  rw [spread_row]
  simp only [shapeCast_self]
  rw [matmul_rows_cols_1024]

end Cert.KernelIdeal.Pay

end
-- ==== Proof.Region3.lean ====
/-
  Region 3 (output projection, residual, layer normalisation) as ONE function of the arrays it finds: the output array of
  16384 rows ends holding, at (r, e), the layer normalisation — with the scale and shift rows it finds — of row r of
  (attention rows × transposed output weights + bias row + residual rows), at column e. Point t computes rows
  512·t … 512·t + 511 from the same rows of the two row operands and the whole of the weights and the three [1, 1024] rows.
-/
import proofs.«160679_j1116691497080_2_alg».proof.Proof.Gen.KernelIdeal.Frame
import proofs.«160679_j1116691497080_2_alg».proof.Proof.LnBody
import proofs.«160679_j1116691497080_2_alg».proof.Proof.Region0

set_option maxRecDepth 16384

noncomputable section

namespace Cert.KernelIdeal.Reg3

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-- The layer's last stage over whole arrays, entry by entry. -/
def outArr (A X : S16384x1024.Idx → EReal) (Wt : S1024x1024.Idx → EReal) (bias g b : S1x1024.Idx → EReal) : S16384x1024.Idx → EReal :=
  fun i => Spec.layerNorm
    (fun e' => (∑ k : Fin 1024, A (ix2 (⟨(i 0).val, (i 0).isLt⟩ : Fin 16384) k) * Wt (ix2 k e')) + bias (ix2 (0 : Fin 1) e') + X (ix2 (⟨(i 0).val, (i 0).isLt⟩ : Fin 16384) e'))
    (fun e' => g (ix2 (0 : Fin 1) e')) (fun e' => b (ix2 (0 : Fin 1) e')) (⟨(i 1).val, (i 1).isLt⟩ : Fin 1024)

theorem outArr_apply (A X : S16384x1024.Idx → EReal) (Wt : S1024x1024.Idx → EReal) (bias g b : S1x1024.Idx → EReal) (i : S16384x1024.Idx) :
    outArr A X Wt bias g b i = Spec.layerNorm
      (fun e' => (∑ k : Fin 1024, A (ix2 (⟨(i 0).val, (i 0).isLt⟩ : Fin 16384) k) * Wt (ix2 k e')) + bias (ix2 (0 : Fin 1) e') + X (ix2 (⟨(i 0).val, (i 0).isLt⟩ : Fin 16384) e'))
      (fun e' => g (ix2 (0 : Fin 1) e')) (fun e' => b (ix2 (0 : Fin 1) e')) (⟨(i 1).val, (i 1).isLt⟩ : Fin 1024) := rfl

theorem layerNorm_congr {y y' g g' b b' : Fin 1024 → EReal} {e e' : Fin 1024}
    (hy : y = y') (hg : g = g') (hb : b = b') (he : e = e') : Spec.layerNorm y g b e = Spec.layerNorm y' g' b' e' := by
  subst hy hg hb he; rfl

variable (V : (c : Dev nD) → (b : Ref sig .tc) → Buf (Elt Ideal) ((c : Thread nD τ).loc b))

/-- The two row operands' windows move with the output's; the weights and the three rows are whole at every point. -/
theorem idx_in : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Output window 6 moves down the rows with the grid point, and stays at column block 0. -/
theorem idx_out6 : ∀ t : Fin cfg3.N, win3_6.index t (0 : Fin 2) = t.val ∧ win3_6.index t (1 : Fin 2) = 0 :=
  (by decide +kernel : ∀ t : Fin grid3.N, _)

/-- An index of the array is in point `t`'s block iff each coordinate is in the block's range on its axis. -/
theorem mem_blk6 (t : Fin cfg3.N) (i : S16384x1024.Idx) :
    i ∈ ((cfg3.win 6).blk t).view.set ↔ ∀ a : Fin 2, win3_6.index t a * S512x1024.size a ≤ (i a).val ∧ (i a).val < win3_6.index t a * S512x1024.size a + S512x1024.size a := by
  show i ∈ ((View.whole main_v23).slice (win3_6.rect t)).set ↔ _
  rw [View.set_slice_whole, Rect.mem_set_unit]
  exact Iff.rfl

/-- Row r of the array lies in the block of point r / 512: the thirty-two blocks of 512 rows tile the 16384 rows. -/
theorem cover6 (i : S16384x1024.Idx) : ∃ t : Fin cfg3.N, (cfg3.win 6).flush t = true ∧ i ∈ ((cfg3.win 6).blk t).view.set := by
  have hi0 : (i 0).val < 16384 := (i 0).isLt
  have hi1 : (i 1).val < 1024 := (i 1).isLt
  refine ⟨⟨(i 0).val / 512, by show (i 0).val / 512 < 32; omega⟩, flush3_6 _, ?_⟩
  rw [mem_blk6]
  obtain ⟨e0, e1⟩ := idx_out6 ⟨(i 0).val / 512, by show (i 0).val / 512 < 32; omega⟩
  intro a
  match a with
  | ⟨0, _⟩ => show win3_6.index _ (0 : Fin 2) * 512 ≤ (i 0).val ∧ (i 0).val < win3_6.index _ (0 : Fin 2) * 512 + 512; rw [e0]; show (i 0).val / 512 * 512 ≤ _ ∧ _ < (i 0).val / 512 * 512 + 512; omega
  | ⟨1, _⟩ => show win3_6.index _ (1 : Fin 2) * 1024 ≤ (i 1).val ∧ (i 1).val < win3_6.index _ (1 : Fin 2) * 1024 + 1024; rw [e1]; omega

set_option maxHeartbeats 1600000 in
/-- What point `t` writes back is block `t` of the last stage over the arrays the region finds. -/
theorem flushed_eq (c : Dev nD) (t : Fin cfg3.N) :
    (dat3 V c).flushed 6 t = ((cfg3.win 6).blk t).view.read (Elt Ideal)
      (outArr (V c main_v19) (V c main_v8) (V c main_v7) (V c main_v20) (V c main_v21) (V c main_v22)) := by
  show (cfg3.win 6).cut (grid3.coords t) ((dat3 V c).after 6 t) = _
  rw [after3_6]
  unfold out3_6
  rw [View.canon_unit_zero Reg0.zeros2]
  simp only [View.ld_unit_zero (S := S512x1024) Reg0.zeros2, View.ld_unit_zero (S := S1024x1024) Reg0.zeros2, View.ld_unit_zero (S := S1x1024) Reg0.zeros2]
  obtain ⟨a0, a1, x0, x1, w0, w1, p0, p1, g0, g1, s0, s1⟩ := idx_in t
  obtain ⟨o0, o1⟩ := idx_out6 t
  funext j
  obtain ⟨p, q, rfl⟩ : ∃ (p : Fin 512) (q : Fin 1024), j = ix2 p q := ⟨j 0, j 1, eq_ix2 j⟩
  refine (Pay.ln_body _ _ _ _ _ _ p q).trans ?_
  show _ = outArr (V c main_v19) (V c main_v8) (V c main_v7) (V c main_v20) (V c main_v21) (V c main_v22) (((cfg3.win 6).blk t).view.emb (ix2 p q))
  have hA : ∀ k : Fin 1024, iblk3 V c 0 t (ix2 p k) = V c main_v19 (ix2 (⟨((((cfg3.win 6).blk t).view.emb (ix2 p q)) 0).val, ((((cfg3.win 6).blk t).view.emb (ix2 p q)) 0).isLt⟩ : Fin 16384) k) := fun k => by
    show V c main_v19 (((cfg3.win 0).blk t).view.emb (ix2 p k)) = _
    refine congrArg (V c main_v19) (funext fun a => Fin.ext ?_)
    match a with
    | ⟨0, _⟩ => show win3_0.index t (0 : Fin 2) * 512 + 1 * p.val = win3_6.index t (0 : Fin 2) * 512 + 1 * p.val; rw [a0, o0]
    | ⟨1, _⟩ => show win3_0.index t (1 : Fin 2) * 1024 + 1 * k.val = k.val; rw [a1]; omega
  have hX : ∀ k : Fin 1024, iblk3 V c 1 t (ix2 p k) = V c main_v8 (ix2 (⟨((((cfg3.win 6).blk t).view.emb (ix2 p q)) 0).val, ((((cfg3.win 6).blk t).view.emb (ix2 p q)) 0).isLt⟩ : Fin 16384) k) := fun k => by
    show V c main_v8 (((cfg3.win 1).blk t).view.emb (ix2 p k)) = _
    refine congrArg (V c main_v8) (funext fun a => Fin.ext ?_)
    match a with
    | ⟨0, _⟩ => show win3_1.index t (0 : Fin 2) * 512 + 1 * p.val = win3_6.index t (0 : Fin 2) * 512 + 1 * p.val; rw [x0, o0]
    | ⟨1, _⟩ => show win3_1.index t (1 : Fin 2) * 1024 + 1 * k.val = k.val; rw [x1]; omega
  have hW : ∀ k e' : Fin 1024, iblk3 V c 2 t (ix2 k e') = V c main_v7 (ix2 k e') := fun k e' => by
    show V c main_v7 (((cfg3.win 2).blk t).view.emb (ix2 k e')) = _
    refine congrArg (V c main_v7) (funext fun a => Fin.ext ?_)
    match a with
    | ⟨0, _⟩ => show win3_2.index t (0 : Fin 2) * 1024 + 1 * k.val = k.val; rw [w0]; omega
    | ⟨1, _⟩ => show win3_2.index t (1 : Fin 2) * 1024 + 1 * e'.val = e'.val; rw [w1]; omega
  have hP : ∀ e' : Fin 1024, iblk3 V c 3 t (ix2 (0 : Fin 1) e') = V c main_v20 (ix2 (0 : Fin 1) e') := fun e' => by
    show V c main_v20 (((cfg3.win 3).blk t).view.emb (ix2 (0 : Fin 1) e')) = _
    refine congrArg (V c main_v20) (funext fun a => Fin.ext ?_)
    match a with
    | ⟨0, _⟩ => show win3_3.index t (0 : Fin 2) * 1 + 1 * 0 = 0; rw [p0]
    | ⟨1, _⟩ => show win3_3.index t (1 : Fin 2) * 1024 + 1 * e'.val = e'.val; rw [p1]; omega
  have hG : ∀ e' : Fin 1024, iblk3 V c 4 t (ix2 (0 : Fin 1) e') = V c main_v21 (ix2 (0 : Fin 1) e') := fun e' => by
    show V c main_v21 (((cfg3.win 4).blk t).view.emb (ix2 (0 : Fin 1) e')) = _
    refine congrArg (V c main_v21) (funext fun a => Fin.ext ?_)
    match a with
    | ⟨0, _⟩ => show win3_4.index t (0 : Fin 2) * 1 + 1 * 0 = 0; rw [g0]
    | ⟨1, _⟩ => show win3_4.index t (1 : Fin 2) * 1024 + 1 * e'.val = e'.val; rw [g1]; omega
  have hB : ∀ e' : Fin 1024, iblk3 V c 5 t (ix2 (0 : Fin 1) e') = V c main_v22 (ix2 (0 : Fin 1) e') := fun e' => by
    show V c main_v22 (((cfg3.win 5).blk t).view.emb (ix2 (0 : Fin 1) e')) = _
    refine congrArg (V c main_v22) (funext fun a => Fin.ext ?_)
    match a with
    | ⟨0, _⟩ => show win3_5.index t (0 : Fin 2) * 1 + 1 * 0 = 0; rw [s0]
    | ⟨1, _⟩ => show win3_5.index t (1 : Fin 2) * 1024 + 1 * e'.val = e'.val; rw [s1]; omega
  refine layerNorm_congr (funext fun e' => ?_) (funext fun e' => hG e') (funext fun e' => hB e') (Fin.ext ?_)
  · exact congrArg₂ (· + ·) (congrArg₂ (· + ·) (Finset.sum_congr rfl fun k _ => congrArg₂ (· * ·) (hA k) (hW k e')) (hP e')) (hX e')
  · show q.val = win3_6.index t (1 : Fin 2) * 1024 + 1 * q.val; rw [o1]; omega

/-- The output array after the region: the last stage over the arrays it found. -/
theorem final (c : Dev nD) : (dat3 V c).arrAt 6 cfg3.N
    = outArr (V c main_v19) (V c main_v8) (V c main_v7) (V c main_v20) (V c main_v21) (V c main_v22) :=
  (dat3 V c).arrAt_eq_of_cover 6 (outArr (V c main_v19) (V c main_v8) (V c main_v7) (V c main_v20) (V c main_v21) (V c main_v22))
    (fun t _ => flushed_eq V c t) cover6

end Cert.KernelIdeal.Reg3

end
-- ==== Proof.HostSide.lean ====
/-
  The result array read back through the program: @main is five stretches of host operations around four regions, and the
  contents at each boundary are a fold over the launch memory. Read from the last boundary backwards: the result is the last
  region's output array reshaped to [8, 2048, 1024]; that region finds the attention output reshaped to 16384 rows, the query
  rows, the transposed output weights and the three parameter rows; attention finds the three projections reshaped to
  [64, 2048, 128]; each projection finds its rows reshaped from [8, 2048, 1024] and its weights transposed. A buffer no
  operation and no region writes between two boundaries holds the same contents at both.
-/
import proofs.«160679_j1116691497080_2_alg».proof.Proof.Gen.KernelIdeal.Frame
import proofs.«160679_j1116691497080_2_alg».proof.Proof.Region0
import proofs.«160679_j1116691497080_2_alg».proof.Proof.Region1
import proofs.«160679_j1116691497080_2_alg».proof.Proof.Region2
import proofs.«160679_j1116691497080_2_alg».proof.Proof.Region3

set_option maxRecDepth 16384

noncomputable section

namespace Cert.KernelIdeal.Fold

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts
open Idealize.ShloMosaic.StableHlo

variable (m : (ℓ : Loc nD τ sig) → Buf (Elt Ideal) ℓ) (ρ : Dev nD → PrngReg) (c : Dev nD)

/-- A stretch of host operations leaves a buffer none of them writes as it was. -/
macro "host_keeps" : tactic => `(tactic| exact StableHlo.after_of_forall_not_mem _ _ (List.forall_iff_forall_mem.mp (by
    simp only [hostOps0, hostOps1, hostOps2, hostOps3, hostOps4, List.Forall, StableHlo.unary_writes, StableHlo.reshape_writes, Finset.mem_singleton]
    repeat' apply And.intro
    all_goals exact StableHlo.devRef_ne_of_ne (by decide))))

/-! ## Region 0's entry and exit -/

theorem in0_rows : V1 m ρ c main_v8 = (shapeCast S16384x1024 (m ((c : Thread nD τ).loc main_arg0)) Facts₀.shapeCasts_S8x2048x1024_S16384x1024) := by
  show StableHlo.after hostOps0 (W0 m ρ c) (Proc.devRef .tc main_v8) = _
  after_results <;> rfl

theorem in0_w : V1 m ρ c main_v1 = (truncf (F := Ideal) .bf16 (transpose S1024x1024 [1, 0] (m ((c : Thread nD τ).loc main_arg2)) Facts₀.transposes_S1024x1024_S1024x1024_1_0) Facts₀.bitsLt_bf16_f32) := by
  show StableHlo.after hostOps0 (W0 m ρ c) (Proc.devRef .tc main_v1) = _
  after_results <;> rfl

theorem out0 : W2 m ρ c (Proc.devRef .tc main_v10) = (Reg0.rowsTimes (shapeCast S16384x1024 (m ((c : Thread nD τ).loc main_arg0)) Facts₀.shapeCasts_S8x2048x1024_S16384x1024) (truncf (F := Ideal) .bf16 (transpose S1024x1024 [1, 0] (m ((c : Thread nD τ).loc main_arg2)) Facts₀.transposes_S1024x1024_S1024x1024_1_0) Facts₀.bitsLt_bf16_f32)) := by
  rw [← in0_rows m ρ c, ← in0_w m ρ c]
  exact (W2_arr m ρ c 2).trans (Reg0.final (V1 m ρ) c)

/-! ## Region 1's entry and exit -/

theorem in1_rows : V3 m ρ c main_v9 = (shapeCast S16384x1024 (m ((c : Thread nD τ).loc main_arg1)) Facts₀.shapeCasts_S8x2048x1024_S16384x1024) :=
  calc V3 m ρ c main_v9 = W2 m ρ c (Proc.devRef .tc main_v9) := by host_keeps
    _ = W1 m ρ c (Proc.devRef .tc main_v9) := W2_of_ne m ρ c main_v9 (by decide)
    _ = _ := by show StableHlo.after hostOps0 (W0 m ρ c) (Proc.devRef .tc main_v9) = _; after_results <;> rfl

theorem in1_wk : V3 m ρ c main_v3 = (truncf (F := Ideal) .bf16 (transpose S1024x1024 [1, 0] (m ((c : Thread nD τ).loc main_arg3)) Facts₀.transposes_S1024x1024_S1024x1024_1_0) Facts₀.bitsLt_bf16_f32) :=
  calc V3 m ρ c main_v3 = W2 m ρ c (Proc.devRef .tc main_v3) := by host_keeps
    _ = W1 m ρ c (Proc.devRef .tc main_v3) := W2_of_ne m ρ c main_v3 (by decide)
    _ = _ := by show StableHlo.after hostOps0 (W0 m ρ c) (Proc.devRef .tc main_v3) = _; after_results <;> rfl

theorem in1_wv : V3 m ρ c main_v5 = (truncf (F := Ideal) .bf16 (transpose S1024x1024 [1, 0] (m ((c : Thread nD τ).loc main_arg4)) Facts₀.transposes_S1024x1024_S1024x1024_1_0) Facts₀.bitsLt_bf16_f32) :=
  calc V3 m ρ c main_v5 = W2 m ρ c (Proc.devRef .tc main_v5) := by host_keeps
    _ = W1 m ρ c (Proc.devRef .tc main_v5) := W2_of_ne m ρ c main_v5 (by decide)
    _ = _ := by show StableHlo.after hostOps0 (W0 m ρ c) (Proc.devRef .tc main_v5) = _; after_results <;> rfl

theorem out1_k : W4 m ρ c (Proc.devRef .tc main_v12_0) = (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg3)) Facts₀.transposes_S1024x1024_S1024x1024_1_0) Facts₀.bitsLt_bf16_f32)) := by
  rw [← in1_rows m ρ c, ← in1_wk m ρ c]
  exact (W4_arr m ρ c 3).trans (Reg1.final3 (V3 m ρ) c)

theorem out1_v : W4 m ρ c (Proc.devRef .tc main_v12_1) = (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg4)) Facts₀.transposes_S1024x1024_S1024x1024_1_0) Facts₀.bitsLt_bf16_f32)) := by
  rw [← in1_rows m ρ c, ← in1_wv m ρ c]
  exact (W4_arr m ρ c 4).trans (Reg1.final4 (V3 m ρ) c)

/-! ## Region 2's entry and exit -/

theorem in2_q : V5 m ρ c main_v15 = (shapeCast S64x2048x128 (shapeCast S8x2048x1024 (Reg0.rowsTimes (shapeCast S16384x1024 (m ((c : Thread nD τ).loc main_arg0)) Facts₀.shapeCasts_S8x2048x1024_S16384x1024) (truncf (F := Ideal) .bf16 (transpose S1024x1024 [1, 0] (m ((c : Thread nD τ).loc main_arg2)) Facts₀.transposes_S1024x1024_S1024x1024_1_0) Facts₀.bitsLt_bf16_f32)) Facts₀.shapeCasts_S16384x1024_S8x2048x1024) Facts₀.shapeCasts_S8x2048x1024_S64x2048x128) := by
  have e1 : V5 m ρ c main_v15 = shapeCast S64x2048x128 (W4 m ρ c (Proc.devRef .tc main_v11)) Facts₀.shapeCasts_S8x2048x1024_S64x2048x128 := by
    show StableHlo.after hostOps2 (W4 m ρ c) (Proc.devRef .tc main_v15) = _
    after_results <;> rfl
  have e2 : W4 m ρ c (Proc.devRef .tc main_v11) = shapeCast S8x2048x1024 (W2 m ρ c (Proc.devRef .tc main_v10)) Facts₀.shapeCasts_S16384x1024_S8x2048x1024 :=
    calc W4 m ρ c (Proc.devRef .tc main_v11) = W3 m ρ c (Proc.devRef .tc main_v11) := W4_of_ne m ρ c main_v11 (by decide)
      _ = _ := by show StableHlo.after hostOps1 (W2 m ρ c) (Proc.devRef .tc main_v11) = _; after_results <;> rfl
  rw [e1, e2, out0]

theorem in2_k : V5 m ρ c main_v16 = (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg3)) Facts₀.transposes_S1024x1024_S1024x1024_1_0) Facts₀.bitsLt_bf16_f32)) Facts₀.shapeCasts_S16384x1024_S8x2048x1024) Facts₀.shapeCasts_S8x2048x1024_S64x2048x128) := by
  have e1 : V5 m ρ c main_v16 = shapeCast S64x2048x128 (shapeCast S8x2048x1024 (W4 m ρ c (Proc.devRef .tc main_v12_0)) Facts₀.shapeCasts_S16384x1024_S8x2048x1024) Facts₀.shapeCasts_S8x2048x1024_S64x2048x128 := by
    show StableHlo.after hostOps2 (W4 m ρ c) (Proc.devRef .tc main_v16) = _
    after_results <;> rfl
  rw [e1, out1_k]

theorem in2_v : V5 m ρ c main_v17 = (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg4)) Facts₀.transposes_S1024x1024_S1024x1024_1_0) Facts₀.bitsLt_bf16_f32)) Facts₀.shapeCasts_S16384x1024_S8x2048x1024) Facts₀.shapeCasts_S8x2048x1024_S64x2048x128) := by
  have e1 : V5 m ρ c main_v17 = shapeCast S64x2048x128 (shapeCast S8x2048x1024 (W4 m ρ c (Proc.devRef .tc main_v12_1)) Facts₀.shapeCasts_S16384x1024_S8x2048x1024) Facts₀.shapeCasts_S8x2048x1024_S64x2048x128 := by
    show StableHlo.after hostOps2 (W4 m ρ c) (Proc.devRef .tc main_v17) = _
    after_results <;> rfl
  rw [e1, out1_v]

theorem out2 : W6 m ρ c (Proc.devRef .tc main_v18) = (Reg2.attnArr (shapeCast S64x2048x128 (shapeCast S8x2048x1024 (Reg0.rowsTimes (shapeCast S16384x1024 (m ((c : Thread nD τ).loc main_arg0)) Facts₀.shapeCasts_S8x2048x1024_S16384x1024) (truncf (F := Ideal) .bf16 (transpose S1024x1024 [1, 0] (m ((c : Thread nD τ).loc main_arg2)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg3)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg4)) Facts₀.transposes_S1024x1024_S1024x1024_1_0) Facts₀.bitsLt_bf16_f32)) Facts₀.shapeCasts_S16384x1024_S8x2048x1024) Facts₀.shapeCasts_S8x2048x1024_S64x2048x128)) := by
  rw [← in2_q m ρ c, ← in2_k m ρ c, ← in2_v m ρ c]
  exact (W6_arr m ρ c 3).trans (Reg2.final (V5 m ρ) c)

/-! ## Region 3's entry and exit -/

theorem in3_att : V7 m ρ c main_v19 = shapeCast S16384x1024 (Reg2.attnArr (shapeCast S64x2048x128 (shapeCast S8x2048x1024 (Reg0.rowsTimes (shapeCast S16384x1024 (m ((c : Thread nD τ).loc main_arg0)) Facts₀.shapeCasts_S8x2048x1024_S16384x1024) (truncf (F := Ideal) .bf16 (transpose S1024x1024 [1, 0] (m ((c : Thread nD τ).loc main_arg2)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg3)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg4)) Facts₀.transposes_S1024x1024_S1024x1024_1_0) Facts₀.bitsLt_bf16_f32)) Facts₀.shapeCasts_S16384x1024_S8x2048x1024) Facts₀.shapeCasts_S8x2048x1024_S64x2048x128)) Facts₀.shapeCasts_S64x2048x128_S16384x1024 := by
  have e1 : V7 m ρ c main_v19 = shapeCast S16384x1024 (W6 m ρ c (Proc.devRef .tc main_v18)) Facts₀.shapeCasts_S64x2048x128_S16384x1024 := by
    show StableHlo.after hostOps3 (W6 m ρ c) (Proc.devRef .tc main_v19) = _
    after_results <;> rfl
  rw [e1, out2]

theorem in3_rows : V7 m ρ c main_v8 = (shapeCast S16384x1024 (m ((c : Thread nD τ).loc main_arg0)) Facts₀.shapeCasts_S8x2048x1024_S16384x1024) :=
  calc V7 m ρ c main_v8 = W6 m ρ c (Proc.devRef .tc main_v8) := by host_keeps
    _ = W5 m ρ c (Proc.devRef .tc main_v8) := W6_of_ne m ρ c main_v8 (by decide)
    _ = W4 m ρ c (Proc.devRef .tc main_v8) := by host_keeps
    _ = W3 m ρ c (Proc.devRef .tc main_v8) := W4_of_ne m ρ c main_v8 (by decide)
    _ = W2 m ρ c (Proc.devRef .tc main_v8) := by host_keeps
    _ = W1 m ρ c (Proc.devRef .tc main_v8) := (W2_arr m ρ c 0).trans (((dat0 (V1 m ρ) c).arrAt_in 0 rfl cfg0.N).trans (A_eq0 (V1 m ρ) c 0))
    _ = _ := in0_rows m ρ c

theorem in3_w : V7 m ρ c main_v7 = (truncf (F := Ideal) .bf16 (transpose S1024x1024 [1, 0] (m ((c : Thread nD τ).loc main_arg5)) Facts₀.transposes_S1024x1024_S1024x1024_1_0) Facts₀.bitsLt_bf16_f32) :=
  calc V7 m ρ c main_v7 = W6 m ρ c (Proc.devRef .tc main_v7) := by host_keeps
    _ = W5 m ρ c (Proc.devRef .tc main_v7) := W6_of_ne m ρ c main_v7 (by decide)
    _ = W4 m ρ c (Proc.devRef .tc main_v7) := by host_keeps
    _ = W3 m ρ c (Proc.devRef .tc main_v7) := W4_of_ne m ρ c main_v7 (by decide)
    _ = W2 m ρ c (Proc.devRef .tc main_v7) := by host_keeps
    _ = W1 m ρ c (Proc.devRef .tc main_v7) := W2_of_ne m ρ c main_v7 (by decide)
    _ = _ := by show StableHlo.after hostOps0 (W0 m ρ c) (Proc.devRef .tc main_v7) = _; after_results <;> rfl

theorem kept_arg6 : W6 m ρ c (Proc.devRef .tc main_arg6) = (m ((c : Thread nD τ).loc main_arg6)) :=
  calc W6 m ρ c (Proc.devRef .tc main_arg6) = W5 m ρ c (Proc.devRef .tc main_arg6) := W6_of_ne m ρ c main_arg6 (by decide)
    _ = W4 m ρ c (Proc.devRef .tc main_arg6) := by host_keeps
    _ = W3 m ρ c (Proc.devRef .tc main_arg6) := W4_of_ne m ρ c main_arg6 (by decide)
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = _ := rfl

theorem in3_row6 : V7 m ρ c main_v20 = (shapeCast S1x1024 (m ((c : Thread nD τ).loc main_arg6)) Facts₀.shapeCasts_S1024_S1x1024) := by
  have e1 : V7 m ρ c main_v20 = shapeCast S1x1024 (W6 m ρ c (Proc.devRef .tc main_arg6)) Facts₀.shapeCasts_S1024_S1x1024 := by
    show StableHlo.after hostOps3 (W6 m ρ c) (Proc.devRef .tc main_v20) = _
    after_results <;> rfl
  rw [e1, kept_arg6]

theorem kept_arg7 : W6 m ρ c (Proc.devRef .tc main_arg7) = (m ((c : Thread nD τ).loc main_arg7)) :=
  calc W6 m ρ c (Proc.devRef .tc main_arg7) = W5 m ρ c (Proc.devRef .tc main_arg7) := W6_of_ne m ρ c main_arg7 (by decide)
    _ = W4 m ρ c (Proc.devRef .tc main_arg7) := by host_keeps
    _ = W3 m ρ c (Proc.devRef .tc main_arg7) := W4_of_ne m ρ c main_arg7 (by decide)
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = _ := rfl

theorem in3_row7 : V7 m ρ c main_v21 = (shapeCast S1x1024 (m ((c : Thread nD τ).loc main_arg7)) Facts₀.shapeCasts_S1024_S1x1024) := by
  have e1 : V7 m ρ c main_v21 = shapeCast S1x1024 (W6 m ρ c (Proc.devRef .tc main_arg7)) Facts₀.shapeCasts_S1024_S1x1024 := by
    show StableHlo.after hostOps3 (W6 m ρ c) (Proc.devRef .tc main_v21) = _
    after_results <;> rfl
  rw [e1, kept_arg7]

theorem kept_arg8 : W6 m ρ c (Proc.devRef .tc main_arg8) = (m ((c : Thread nD τ).loc main_arg8)) :=
  calc W6 m ρ c (Proc.devRef .tc main_arg8) = W5 m ρ c (Proc.devRef .tc main_arg8) := W6_of_ne m ρ c main_arg8 (by decide)
    _ = W4 m ρ c (Proc.devRef .tc main_arg8) := by host_keeps
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = _ := rfl

theorem in3_row8 : V7 m ρ c main_v22 = (shapeCast S1x1024 (m ((c : Thread nD τ).loc main_arg8)) Facts₀.shapeCasts_S1024_S1x1024) := by
  have e1 : V7 m ρ c main_v22 = shapeCast S1x1024 (W6 m ρ c (Proc.devRef .tc main_arg8)) Facts₀.shapeCasts_S1024_S1x1024 := by
    show StableHlo.after hostOps3 (W6 m ρ c) (Proc.devRef .tc main_v22) = _
    after_results <;> rfl
  rw [e1, kept_arg8]

theorem out3 : W8 m ρ c (Proc.devRef .tc main_v23) = (Reg3.outArr (shapeCast S16384x1024 (Reg2.attnArr (shapeCast S64x2048x128 (shapeCast S8x2048x1024 (Reg0.rowsTimes (shapeCast S16384x1024 (m ((c : Thread nD τ).loc main_arg0)) Facts₀.shapeCasts_S8x2048x1024_S16384x1024) (truncf (F := Ideal) .bf16 (transpose S1024x1024 [1, 0] (m ((c : Thread nD τ).loc main_arg2)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg3)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg4)) Facts₀.transposes_S1024x1024_S1024x1024_1_0) Facts₀.bitsLt_bf16_f32)) Facts₀.shapeCasts_S16384x1024_S8x2048x1024) Facts₀.shapeCasts_S8x2048x1024_S64x2048x128)) Facts₀.shapeCasts_S64x2048x128_S16384x1024) (shapeCast S16384x1024 (m ((c : Thread nD τ).loc main_arg0)) Facts₀.shapeCasts_S8x2048x1024_S16384x1024) (truncf (F := Ideal) .bf16 (transpose S1024x1024 [1, 0] (m ((c : Thread nD τ).loc main_arg5)) Facts₀.transposes_S1024x1024_S1024x1024_1_0) Facts₀.bitsLt_bf16_f32) (shapeCast S1x1024 (m ((c : Thread nD τ).loc main_arg6)) Facts₀.shapeCasts_S1024_S1x1024) (shapeCast S1x1024 (m ((c : Thread nD τ).loc main_arg7)) Facts₀.shapeCasts_S1024_S1x1024) (shapeCast S1x1024 (m ((c : Thread nD τ).loc main_arg8)) Facts₀.shapeCasts_S1024_S1x1024)) := by
  rw [← in3_att m ρ c, ← in3_rows m ρ c, ← in3_w m ρ c, ← in3_row6 m ρ c, ← in3_row7 m ρ c, ← in3_row8 m ρ c]
  exact (W8_arr m ρ c 6).trans (Reg3.final (V7 m ρ) c)

/-- The result array at the last boundary, as one function of the argument arrays. -/
theorem result : W9 m ρ c (Proc.devRef .tc main_v24) = shapeCast S8x2048x1024 (Reg3.outArr (shapeCast S16384x1024 (Reg2.attnArr (shapeCast S64x2048x128 (shapeCast S8x2048x1024 (Reg0.rowsTimes (shapeCast S16384x1024 (m ((c : Thread nD τ).loc main_arg0)) Facts₀.shapeCasts_S8x2048x1024_S16384x1024) (truncf (F := Ideal) .bf16 (transpose S1024x1024 [1, 0] (m ((c : Thread nD τ).loc main_arg2)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg3)) Facts₀.transposes_S1024x1024_S1024x1024_1_0) Facts₀.bitsLt_bf16_f32)) Facts₀.shapeCasts_S16384x1024_S8x2048x1024) Facts₀.shapeCasts_S8x2048x1024_S64x2048x128) (shapeCast S64x2048x128 (shapeCast S8x2048x1024 (Reg0.rowsTimes (shapeCast S16384x1024 (m ((c : Thread nD τ).loc main_arg1)) Facts₀.shapeCasts_S8x2048x1024_S16384x1024) (truncf (F := Ideal) .bf16 (transpose S1024x1024 [1, 0] (m ((c : Thread nD τ).loc main_arg4)) Facts₀.transposes_S1024x1024_S1024x1024_1_0) Facts₀.bitsLt_bf16_f32)) Facts₀.shapeCasts_S16384x1024_S8x2048x1024) Facts₀.shapeCasts_S8x2048x1024_S64x2048x128)) Facts₀.shapeCasts_S64x2048x128_S16384x1024) (shapeCast S16384x1024 (m ((c : Thread nD τ).loc main_arg0)) Facts₀.shapeCasts_S8x2048x1024_S16384x1024) (truncf (F := Ideal) .bf16 (transpose S1024x1024 [1, 0] (m ((c : Thread nD τ).loc main_arg5)) Facts₀.transposes_S1024x1024_S1024x1024_1_0) Facts₀.bitsLt_bf16_f32) (shapeCast S1x1024 (m ((c : Thread nD τ).loc main_arg6)) Facts₀.shapeCasts_S1024_S1x1024) (shapeCast S1x1024 (m ((c : Thread nD τ).loc main_arg7)) Facts₀.shapeCasts_S1024_S1x1024) (shapeCast S1x1024 (m ((c : Thread nD τ).loc main_arg8)) Facts₀.shapeCasts_S1024_S1x1024)) Facts₀.shapeCasts_S16384x1024_S8x2048x1024 := by
  have e1 : W9 m ρ c (Proc.devRef .tc main_v24) = shapeCast S8x2048x1024 (W8 m ρ c (Proc.devRef .tc main_v23)) Facts₀.shapeCasts_S16384x1024_S8x2048x1024 := by
    show StableHlo.after hostOps4 (W8 m ρ c) (Proc.devRef .tc main_v24) = _
    after_results <;> rfl
  rw [e1, out3]

end Cert.KernelIdeal.Fold

end
-- ==== Proof.LibReshape.lean ====
/-
  Two reshapes in a row are one: a reshape matches multi-indices by row-major position, so going through a third shape
  matches directly.
-/
import Idealize.ShloMosaic.Lib.Pipeline.Value

namespace Reshape

open Idealize.ShloMosaic

/-- Reshaping to `t` and then to `u` is reshaping to `u`. -/
theorem shapeCast_shapeCast_eq {s t u : Shape} {α : Type} (x : s.Idx → α) (h : s.ShapeCasts t) (h' : t.ShapeCasts u)
    (h'' : s.ShapeCasts u) : shapeCast u (shapeCast t x h) h' = shapeCast u x h'' :=
  funext fun j => congrArg x (Shape.reshapeEquiv_reshapeEquiv h h' j)

end Reshape
-- ==== Proof.Bridge1.lean ====
/-
  The projections, the kernel's arrangement against the reference's. The kernel reshapes the [8, 2048, 1024] rows to 16384
  rows, multiplies by the transposed weights and reshapes back; the reference contracts the last axis of the rows with the
  second axis of the weights. Entry (b, s, e) of both is the sum over k of x(b, s, k) · w(e, k): row 2048·b + s of the
  reshaped array is row (b, s), and entry (k, e) of the transposed weights is entry (e, k) of the weights. Reshaped further
  to [64, 2048, 128] both are the reference's head view.
-/
import proofs.«160679_j1116691497080_2_alg».proof.Proof.Gen.ReferenceIdeal.Read
import proofs.«160679_j1116691497080_2_alg».proof.Proof.Region0
import proofs.«160679_j1116691497080_2_alg».proof.Proof.LibReshape

set_option maxRecDepth 16384

noncomputable section

namespace Cert.Bridge

open Idealize.ShloMosaic Idealize.ShloMosaic.ValueIdx
open Cert.KernelIdeal
open Cert.ReferenceIdeal.Read

/-- Entry (k, e) of the transposed (and rounded, which is the identity here) weights is entry (e, k) of the weights. -/
theorem wT_apply (w : S1024x1024.Idx → EReal) (k e : Fin 1024) :
    (truncf (F := Ideal) .bf16 (transpose S1024x1024 [1, 0] w Facts₀.transposes_S1024x1024_S1024x1024_1_0) Facts₀.bitsLt_bf16_f32 : FVec Ideal S1024x1024 .bf16) (ix2 k e) = w (ix2 e k) := by
  show transpose S1024x1024 [1, 0] w Facts₀.transposes_S1024x1024_S1024x1024_1_0 (ix2 k e) = _
  refine transpose_apply [1, 0] w _ (ix2 k e) (ix2 e k) fun b => ?_
  match b with
  | ⟨0, _⟩ => rfl
  | ⟨1, _⟩ => rfl

/-- Row r = 2048·b + s of the rows reshaped to [16384, 1024] is row (b, s). -/
theorem rows_apply (x : S8x2048x1024.Idx → EReal) (b : Fin 8) (s : Fin 2048) (k : Fin 1024) (r : Fin 16384) (hr : r.val = b.val * 2048 + s.val) :
    shapeCast S16384x1024 x Facts₀.shapeCasts_S8x2048x1024_S16384x1024 (ix2 r k) = x (ix3 b s k) :=
  shapeCast_apply x _ _ _ (by
    rw [Shape.rowMajor_val_three, Shape.rowMajor_val_two]
    show (b.val * 2048 + s.val) * 1024 + k.val = r.val * 1024 + k.val
    rw [hr])

/-- The kernel's projection, reshaped back to [8, 2048, 1024], is the reference's contraction. -/
theorem proj_eq (x : S8x2048x1024.Idx → EReal) (w : S1024x1024.Idx → EReal) :
    shapeCast S8x2048x1024 (Reg0.rowsTimes (shapeCast S16384x1024 x Facts₀.shapeCasts_S8x2048x1024_S16384x1024)
        (truncf (F := Ideal) .bf16 (transpose S1024x1024 [1, 0] w Facts₀.transposes_S1024x1024_S1024x1024_1_0) Facts₀.bitsLt_bf16_f32))
      Facts₀.shapeCasts_S16384x1024_S8x2048x1024 = val_main_v0 (F := Ideal) x w := by
  funext i
  obtain ⟨b, s, e, rfl⟩ : ∃ (b : Fin 8) (s : Fin 2048) (e : Fin 1024), i = ix3 b s e := ⟨i 0, i 1, i 2, eq_ix3 i⟩
  have hr : b.val * 2048 + s.val < 16384 := by have := b.isLt; have := s.isLt; omega
  refine (shapeCast_apply _ Facts₀.shapeCasts_S16384x1024_S8x2048x1024 (ix3 b s e) (ix2 (⟨b.val * 2048 + s.val, hr⟩ : Fin 16384) e) (by
    rw [Shape.rowMajor_val_three, Shape.rowMajor_val_two]
    show (b.val * 2048 + s.val) * 1024 + e.val = (b.val * 2048 + s.val) * 1024 + e.val
    rfl)).trans ?_
  rw [Reg0.rowsTimes_apply, val_main_v0_apply]
  refine Finset.sum_congr rfl fun k _ => congrArg₂ (· * ·) ?_ ?_
  · refine (rows_apply x b s k _ rfl).trans (congrArg x (funext fun a => Fin.ext ?_))
    match a with
    | ⟨0, _⟩ => rfl
    | ⟨1, _⟩ => rfl
    | ⟨2, _⟩ => rfl
  · refine (wT_apply w k _).trans (congrArg w (funext fun a => Fin.ext ?_))
    match a with
    | ⟨0, _⟩ => rfl
    | ⟨1, _⟩ => rfl

/-- Reshaped to [64, 2048, 128], the query projection is the reference's head view of its own. -/
theorem heads_q (x0 : S8x2048x1024.Idx → EReal) (x2 : S1024x1024.Idx → EReal) :
    (shapeCast S64x2048x128 (shapeCast S8x2048x1024 (Reg0.rowsTimes (shapeCast S16384x1024 x0 Facts₀.shapeCasts_S8x2048x1024_S16384x1024) (truncf (F := Ideal) .bf16 (transpose S1024x1024 [1, 0] x2 Facts₀.transposes_S1024x1024_S1024x1024_1_0) Facts₀.bitsLt_bf16_f32)) Facts₀.shapeCasts_S16384x1024_S8x2048x1024) Facts₀.shapeCasts_S8x2048x1024_S64x2048x128) = val_main_v3 (F := Ideal) x0 x2 := by
  rw [proj_eq]; rfl

/-- … the key projection, … -/
theorem heads_k (x1 : S8x2048x1024.Idx → EReal) (x3 : S1024x1024.Idx → EReal) :
    (shapeCast S64x2048x128 (shapeCast S8x2048x1024 (Reg0.rowsTimes (shapeCast S16384x1024 x1 Facts₀.shapeCasts_S8x2048x1024_S16384x1024) (truncf (F := Ideal) .bf16 (transpose S1024x1024 [1, 0] x3 Facts₀.transposes_S1024x1024_S1024x1024_1_0) Facts₀.bitsLt_bf16_f32)) Facts₀.shapeCasts_S16384x1024_S8x2048x1024) Facts₀.shapeCasts_S8x2048x1024_S64x2048x128) = val_main_v4 (F := Ideal) x1 x3 := by
  rw [proj_eq]; rfl

/-- … and the value projection. -/
theorem heads_v (x1 : S8x2048x1024.Idx → EReal) (x4 : S1024x1024.Idx → EReal) :
    (shapeCast S64x2048x128 (shapeCast S8x2048x1024 (Reg0.rowsTimes (shapeCast S16384x1024 x1 Facts₀.shapeCasts_S8x2048x1024_S16384x1024) (truncf (F := Ideal) .bf16 (transpose S1024x1024 [1, 0] x4 Facts₀.transposes_S1024x1024_S1024x1024_1_0) Facts₀.bitsLt_bf16_f32)) Facts₀.shapeCasts_S16384x1024_S8x2048x1024) Facts₀.shapeCasts_S8x2048x1024_S64x2048x128) = val_main_v5 (F := Ideal) x1 x4 := by
  rw [proj_eq]; rfl

end Cert.Bridge

end
-- ==== Proof.Bridge2.lean ====
/-
  The reference's softmax attention read row by row. For group g and query row s: the scaled scores against the 2048 keys,
  their maximum (a fold of max from −∞, taken once more against −∞, which changes nothing), the exponentials of the
  differences, their sum (from an initial 0), the shares, and the sum over the keys of share × value — the same row
  function the kernel's attention computes, so attention over the reference's head views is the reference's attention output.
-/
import proofs.«160679_j1116691497080_2_alg».proof.Proof.Gen.ReferenceIdeal.Read
import proofs.«160679_j1116691497080_2_alg».proof.Proof.Region2

set_option maxRecDepth 16384

noncomputable section

namespace Cert.Bridge

open Idealize.ShloMosaic Idealize.ShloMosaic.ValueIdx
open Cert.KernelIdeal
open Cert.ReferenceIdeal.Read

variable (x0 x1 : S8x2048x1024.Idx → EReal) (x2 x3 x4 : S1024x1024.Idx → EReal)

/-- The reference's scaled score of query row (g, s) against key j. -/
theorem ref_score (g : Fin 64) (s j : Fin 2048) :
    val_main_v8 (F := Ideal) x0 x1 x2 x3 (ix3 g s j)
      = Spec.score (fun d => val_main_v3 (F := Ideal) x0 x2 (ix3 g s d)) (fun j' d => val_main_v4 (F := Ideal) x1 x3 (ix3 g j' d)) j := by
  refine (val_main_v8_apply (F := Ideal) x0 x1 x2 x3 (ix3 g s j)).trans ?_
  rw [val_main_v6_apply, val_main_v7_apply]
  show (∑ k : Fin 128, _) * Ideal.ofBits .f32 0x3D000000#32 = _
  unfold Spec.score
  refine congrArg (· * _) (Finset.sum_congr rfl fun k _ => congrArg₂ (· * ·) (congrArg (val_main_v3 (F := Ideal) x0 x2) (funext fun a => Fin.ext (by match a with | ⟨0, _⟩ => rfl | ⟨1, _⟩ => rfl | ⟨2, _⟩ => rfl))) (congrArg (val_main_v4 (F := Ideal) x1 x3) (funext fun a => Fin.ext (by match a with | ⟨0, _⟩ => rfl | ⟨1, _⟩ => rfl | ⟨2, _⟩ => rfl))))

/-- The reference's row maximum. -/
theorem ref_max (g : Fin 64) (s : Fin 2048) :
    val_main_v11 (F := Ideal) x0 x1 x2 x3 (ix2 g s) = Spec.rowMax (fun j => val_main_v8 (F := Ideal) x0 x1 x2 x3 (ix3 g s j)) := by
  refine (val_main_v11_apply (F := Ideal) x0 x1 x2 x3 (ix2 g s)).trans ?_
  have h9 : val_main_v9 (F := Ideal) x0 x1 x2 x3 (ix2 g s) = Spec.rowMax (fun j => val_main_v8 (F := Ideal) x0 x1 x2 x3 (ix3 g s j)) := by
    unfold val_main_v9
    refine (Host.reduce_eq_fold_single FloatOps.maximumf _ _ Cert.ReferenceIdeal.Facts₀.reducesTo_S64x2048x2048_S64x2048_d2 (by decide) Cert.ReferenceIdeal.Facts₀.h_S_ (ix2 g s)).trans ?_
    unfold Spec.rowMax
    show (Finset.univ : Finset (Fin 2048)).fold max (Ideal.ofBits .f32 0xFF800000#32) _ = _
    refine congrArg (fun f => (Finset.univ : Finset (Fin 2048)).fold max (Ideal.ofBits .f32 0xFF800000#32) f) (funext fun k => congrArg (val_main_v8 (F := Ideal) x0 x1 x2 x3) (funext fun a => Fin.ext (by match a with | ⟨0, _⟩ => rfl | ⟨1, _⟩ => rfl | ⟨2, _⟩ => rfl)))
  rw [h9, val_main_v10_apply]
  exact Spec.max_init_fold _ _

/-- The reference's weight of key j in row (g, s). -/
theorem ref_weight (g : Fin 64) (s j : Fin 2048) :
    val_main_v15 (F := Ideal) x0 x1 x2 x3 (ix3 g s j) = Spec.weight (fun j' => val_main_v8 (F := Ideal) x0 x1 x2 x3 (ix3 g s j')) j := by
  refine (val_main_v15_apply (F := Ideal) x0 x1 x2 x3 (ix3 g s j)).trans ?_
  show Ideal.exp (val_main_v8 (F := Ideal) x0 x1 x2 x3 (ix3 g s j) - val_main_v13 (F := Ideal) x0 x1 x2 x3 (ix3 g s j)) = _
  rw [val_main_v13_apply, val_main_v12_apply]
  unfold Spec.weight
  refine congrArg (fun z => Ideal.exp (val_main_v8 (F := Ideal) x0 x1 x2 x3 (ix3 g s j) - z)) ?_
  refine Eq.trans (congrArg (val_main_v11 (F := Ideal) x0 x1 x2 x3) (funext fun a => Fin.ext (by match a with | ⟨0, _⟩ => rfl | ⟨1, _⟩ => rfl))) (ref_max x0 x1 x2 x3 g s)

/-- The reference's row sum of the weights, spread along the row. -/
theorem ref_sum (g : Fin 64) (s j : Fin 2048) :
    val_main_v18 (F := Ideal) x0 x1 x2 x3 (ix3 g s j) = ∑ j' : Fin 2048, Spec.weight (fun j'' => val_main_v8 (F := Ideal) x0 x1 x2 x3 (ix3 g s j'')) j' := by
  rw [val_main_v18_apply, val_main_v17_apply, val_main_v16_apply]
  show Ideal.ofBits .f32 0x00000000#32 + _ = _
  rw [Ideal.ofBits_zero_f32, zero_add]
  refine Finset.sum_congr rfl fun k _ => ?_
  refine Eq.trans (congrArg (val_main_v15 (F := Ideal) x0 x1 x2 x3) (funext fun a => Fin.ext (by match a with | ⟨0, _⟩ => rfl | ⟨1, _⟩ => rfl | ⟨2, _⟩ => rfl))) (ref_weight x0 x1 x2 x3 g s k)

/-- The reference's share of key j in row (g, s). -/
theorem ref_share (g : Fin 64) (s j : Fin 2048) :
    val_main_v19 (F := Ideal) x0 x1 x2 x3 (ix3 g s j) = Spec.share (fun j' => val_main_v8 (F := Ideal) x0 x1 x2 x3 (ix3 g s j')) j := by
  refine (val_main_v19_apply (F := Ideal) x0 x1 x2 x3 (ix3 g s j)).trans ?_
  show Ideal.div _ _ = _
  rw [ref_weight, ref_sum]
  rfl

/-- Attention over the reference's head views is the reference's attention output. -/
theorem attn_eq :
    Reg2.attnArr (val_main_v3 (F := Ideal) x0 x2) (val_main_v4 (F := Ideal) x1 x3) (val_main_v5 (F := Ideal) x1 x4) = val_main_v20 (F := Ideal) x0 x1 x2 x3 x4 := by
  funext i
  obtain ⟨g, s, c, rfl⟩ : ∃ (g : Fin 64) (s : Fin 2048) (c : Fin 128), i = ix3 g s c := ⟨i 0, i 1, i 2, eq_ix3 i⟩
  rw [val_main_v20_apply]
  show Spec.attend (fun d => val_main_v3 (F := Ideal) x0 x2 (ix3 g s d)) (fun j d => val_main_v4 (F := Ideal) x1 x3 (ix3 g j d)) (fun j d => val_main_v5 (F := Ideal) x1 x4 (ix3 g j d)) c = _
  unfold Spec.attend
  refine Finset.sum_congr rfl fun j _ => congrArg₂ (· * ·) ?_ (congrArg (val_main_v5 (F := Ideal) x1 x4) (funext fun a => Fin.ext (by match a with | ⟨0, _⟩ => rfl | ⟨1, _⟩ => rfl | ⟨2, _⟩ => rfl)))
  refine Eq.trans ?_ (Eq.trans (ref_share x0 x1 x2 x3 g s j).symm (congrArg (val_main_v19 (F := Ideal) x0 x1 x2 x3) (funext fun a => Fin.ext (by match a with | ⟨0, _⟩ => rfl | ⟨1, _⟩ => rfl | ⟨2, _⟩ => rfl))))
  refine congrArg (fun f => Spec.share f j) (funext fun j' => (ref_score x0 x1 x2 x3 g s j').symm)

end Cert.Bridge

end
-- ==== Proof.Bridge3.lean ====
/-
  The reference's last stage read row by row, and the kernel's against it. For row (b, s): the reference's sum
  y(e) = Σ_k ctx(b, s, k) · Wp(e, k) + bp(e) + query(b, s, e), its mean and mean square deviation (sums from an initial 0 over
  the float word of 1024) and the normalised, scaled and shifted row. The kernel computes the same row function on row
  2048·b + s of the arrays reshaped to 16384 rows: its attention operand is the reference's attention output reshaped, its
  weights the transposed output weights, its three rows the parameters reshaped to [1, 1024].
-/
import proofs.«160679_j1116691497080_2_alg».proof.Proof.Gen.ReferenceIdeal.Read
import proofs.«160679_j1116691497080_2_alg».proof.Proof.Region3
import proofs.«160679_j1116691497080_2_alg».proof.Proof.Bridge1

set_option maxRecDepth 16384

noncomputable section

namespace Cert.Bridge

open Idealize.ShloMosaic Idealize.ShloMosaic.ValueIdx
open Cert.KernelIdeal
open Cert.ReferenceIdeal.Read

variable (x0 x1 : S8x2048x1024.Idx → EReal) (x2 x3 x4 x5 : S1024x1024.Idx → EReal) (x6 x7 x8 : S1024.Idx → EReal)

/-- The reference's row before normalisation. -/
theorem ref_y (b : Fin 8) (s : Fin 2048) (e : Fin 1024) :
    val_main_v26 (F := Ideal) x0 x1 x2 x3 x4 x5 x6 (ix3 b s e) = (∑ k : Fin 1024, val_main_v21 (F := Ideal) x0 x1 x2 x3 x4 (ix3 b s k) * x5 (ix2 e k)) + x6 (ix1 e) + x0 (ix3 b s e) := by
  refine (val_main_v26_apply (F := Ideal) x0 x1 x2 x3 x4 x5 x6 (ix3 b s e)).trans ?_
  show val_main_v25 (F := Ideal) x0 x1 x2 x3 x4 x5 x6 (ix3 b s e) + x0 (ix3 b s e) = _
  refine congrArg (· + _) ?_
  refine (val_main_v25_apply (F := Ideal) x0 x1 x2 x3 x4 x5 x6 (ix3 b s e)).trans ?_
  show val_main_v22 (F := Ideal) x0 x1 x2 x3 x4 x5 (ix3 b s e) + val_main_v24 (F := Ideal) x6 (ix3 b s e) = _
  rw [val_main_v22_apply, val_main_v24_apply, val_main_v23_apply]
  refine congrArg₂ (· + ·) (Finset.sum_congr rfl fun k _ => congrArg₂ (· * ·) (congrArg (val_main_v21 (F := Ideal) x0 x1 x2 x3 x4) (funext fun a => Fin.ext (by match a with | ⟨0, _⟩ => rfl | ⟨1, _⟩ => rfl | ⟨2, _⟩ => rfl))) (congrArg x5 (funext fun a => Fin.ext (by match a with | ⟨0, _⟩ => rfl | ⟨1, _⟩ => rfl)))) (congrArg x6 (funext fun a => Fin.ext (by match a with | ⟨0, _⟩ => rfl)))

/-- The reference's row mean, kept as a column. -/
theorem ref_mean (b : Fin 8) (s : Fin 2048) (u : Fin 1) :
    val_main_v30 (F := Ideal) x0 x1 x2 x3 x4 x5 x6 (ix3 b s u) = Spec.mean (fun e => val_main_v26 (F := Ideal) x0 x1 x2 x3 x4 x5 x6 (ix3 b s e)) := by
  refine (val_main_v30_apply (F := Ideal) x0 x1 x2 x3 x4 x5 x6 (ix3 b s u)).trans ?_
  show Ideal.div (val_main_v28 (F := Ideal) x0 x1 x2 x3 x4 x5 x6 (ix3 b s u)) (val_main_v29 (F := Ideal) (ix3 b s u)) = _
  rw [val_main_v28_apply, val_main_v27_apply, val_main_v29_apply]
  show Ideal.div (Ideal.ofBits .f32 0x00000000#32 + _) (Ideal.ofBits .f32 0x44800000#32) = _
  rw [Ideal.ofBits_zero_f32, zero_add]
  unfold Spec.mean
  refine congrArg (Ideal.div · _) (Finset.sum_congr rfl fun k _ => congrArg (val_main_v26 (F := Ideal) x0 x1 x2 x3 x4 x5 x6) (funext fun a => Fin.ext (by match a with | ⟨0, _⟩ => rfl | ⟨1, _⟩ => rfl | ⟨2, _⟩ => rfl)))

/-- The reference's row mean square deviation, kept as a column. -/
theorem ref_var (b : Fin 8) (s : Fin 2048) (u : Fin 1) :
    val_main_v37 (F := Ideal) x0 x1 x2 x3 x4 x5 x6 (ix3 b s u) = Spec.variance (fun e => val_main_v26 (F := Ideal) x0 x1 x2 x3 x4 x5 x6 (ix3 b s e)) := by
  refine (val_main_v37_apply (F := Ideal) x0 x1 x2 x3 x4 x5 x6 (ix3 b s u)).trans ?_
  show Ideal.div (val_main_v35 (F := Ideal) x0 x1 x2 x3 x4 x5 x6 (ix3 b s u)) (val_main_v36 (F := Ideal) (ix3 b s u)) = _
  rw [val_main_v35_apply, val_main_v34_apply, val_main_v36_apply]
  show Ideal.div (Ideal.ofBits .f32 0x00000000#32 + _) (Ideal.ofBits .f32 0x44800000#32) = _
  rw [Ideal.ofBits_zero_f32, zero_add]
  unfold Spec.variance
  refine congrArg (Ideal.div · _) (Finset.sum_congr rfl fun k _ => ?_)
  have hc : val_main_v32 (F := Ideal) x0 x1 x2 x3 x4 x5 x6 (ix3 b s k) = val_main_v26 (F := Ideal) x0 x1 x2 x3 x4 x5 x6 (ix3 b s k) - Spec.mean (fun e => val_main_v26 (F := Ideal) x0 x1 x2 x3 x4 x5 x6 (ix3 b s e)) := by
    refine (val_main_v32_apply (F := Ideal) x0 x1 x2 x3 x4 x5 x6 (ix3 b s k)).trans ?_
    show val_main_v26 (F := Ideal) x0 x1 x2 x3 x4 x5 x6 (ix3 b s k) - val_main_v31 (F := Ideal) x0 x1 x2 x3 x4 x5 x6 (ix3 b s k) = _
    rw [val_main_v31_apply]
    refine congrArg (_ - ·) (Eq.trans (congrArg (val_main_v30 (F := Ideal) x0 x1 x2 x3 x4 x5 x6) (funext fun a => Fin.ext (by match a with | ⟨0, _⟩ => rfl | ⟨1, _⟩ => rfl | ⟨2, _⟩ => rfl))) (ref_mean x0 x1 x2 x3 x4 x5 x6 b s (0 : Fin 1)))
  rw [show idx_main_v34 (idx_main_v35 (ix3 b s u)) k = ix3 b s k from (funext fun a => Fin.ext (by match a with | ⟨0, _⟩ => rfl | ⟨1, _⟩ => rfl | ⟨2, _⟩ => rfl))]
  refine (val_main_v33_apply (F := Ideal) x0 x1 x2 x3 x4 x5 x6 (ix3 b s k)).trans ?_
  show val_main_v32 (F := Ideal) x0 x1 x2 x3 x4 x5 x6 (ix3 b s k) * val_main_v32 (F := Ideal) x0 x1 x2 x3 x4 x5 x6 (ix3 b s k) = _
  rw [hc]

/-- The reference's result at (b, s, e): the layer normalisation of row (b, s). -/
theorem ref_out (b : Fin 8) (s : Fin 2048) (e : Fin 1024) :
    val_main_v50 (F := Ideal) x0 x1 x2 x3 x4 x5 x6 x7 x8 (ix3 b s e)
      = Spec.layerNorm (fun e' => val_main_v26 (F := Ideal) x0 x1 x2 x3 x4 x5 x6 (ix3 b s e')) (fun e' => x7 (ix1 e')) (fun e' => x8 (ix1 e')) e := by
  refine (val_main_v50_apply (F := Ideal) x0 x1 x2 x3 x4 x5 x6 x7 x8 (ix3 b s e)).trans ?_
  show val_main_v47 (F := Ideal) x0 x1 x2 x3 x4 x5 x6 x7 (ix3 b s e) + val_main_v49 (F := Ideal) x8 (ix3 b s e) = _
  rw [val_main_v49_apply, val_main_v48_apply]
  refine (congrArg (· + _) (val_main_v47_apply (F := Ideal) x0 x1 x2 x3 x4 x5 x6 x7 (ix3 b s e))).trans ?_
  show val_main_v44 (F := Ideal) x0 x1 x2 x3 x4 x5 x6 (ix3 b s e) * val_main_v46 (F := Ideal) x7 (ix3 b s e) + _ = _
  rw [val_main_v46_apply, val_main_v45_apply]
  refine (congrArg (· * _ + _) (val_main_v44_apply (F := Ideal) x0 x1 x2 x3 x4 x5 x6 (ix3 b s e))).trans ?_
  show val_main_v39 (F := Ideal) x0 x1 x2 x3 x4 x5 x6 (ix3 b s e) * val_main_v43 (F := Ideal) x0 x1 x2 x3 x4 x5 x6 (ix3 b s e) * _ + _ = _
  have h39 : val_main_v39 (F := Ideal) x0 x1 x2 x3 x4 x5 x6 (ix3 b s e) = val_main_v26 (F := Ideal) x0 x1 x2 x3 x4 x5 x6 (ix3 b s e) - Spec.mean (fun e' => val_main_v26 (F := Ideal) x0 x1 x2 x3 x4 x5 x6 (ix3 b s e')) := by
    refine (val_main_v39_apply (F := Ideal) x0 x1 x2 x3 x4 x5 x6 (ix3 b s e)).trans ?_
    show val_main_v26 (F := Ideal) x0 x1 x2 x3 x4 x5 x6 (ix3 b s e) - val_main_v38 (F := Ideal) x0 x1 x2 x3 x4 x5 x6 (ix3 b s e) = _
    rw [val_main_v38_apply]
    refine congrArg (_ - ·) (Eq.trans (congrArg (val_main_v30 (F := Ideal) x0 x1 x2 x3 x4 x5 x6) (funext fun a => Fin.ext (by match a with | ⟨0, _⟩ => rfl | ⟨1, _⟩ => rfl | ⟨2, _⟩ => rfl))) (ref_mean x0 x1 x2 x3 x4 x5 x6 b s (0 : Fin 1)))
  have h43 : val_main_v43 (F := Ideal) x0 x1 x2 x3 x4 x5 x6 (ix3 b s e) = Ideal.rsqrt (Spec.variance (fun e' => val_main_v26 (F := Ideal) x0 x1 x2 x3 x4 x5 x6 (ix3 b s e')) + Ideal.ofBits .f32 0x3727C5AC#32) := by
    rw [val_main_v43_apply]
    rw [show idx_main_v43 (ix3 b s e) = ix3 b s (0 : Fin 1) from (funext fun a => Fin.ext (by match a with | ⟨0, _⟩ => rfl | ⟨1, _⟩ => rfl | ⟨2, _⟩ => rfl))]
    refine (val_main_v42_apply (F := Ideal) x0 x1 x2 x3 x4 x5 x6 (ix3 b s (0 : Fin 1))).trans ?_
    show Ideal.rsqrt (val_main_v41 (F := Ideal) x0 x1 x2 x3 x4 x5 x6 (ix3 b s (0 : Fin 1))) = _
    refine congrArg Ideal.rsqrt ?_
    refine (val_main_v41_apply (F := Ideal) x0 x1 x2 x3 x4 x5 x6 (ix3 b s (0 : Fin 1))).trans ?_
    show val_main_v37 (F := Ideal) x0 x1 x2 x3 x4 x5 x6 (ix3 b s (0 : Fin 1)) + val_main_v40 (F := Ideal) (ix3 b s (0 : Fin 1)) = _
    rw [ref_var, val_main_v40_apply]
    rfl
  rw [h39, h43]
  unfold Spec.layerNorm
  refine congrArg₂ (· + ·) (congrArg (_ * ·) (congrArg x7 (funext fun a => Fin.ext (by match a with | ⟨0, _⟩ => rfl)))) (congrArg x8 (funext fun a => Fin.ext (by match a with | ⟨0, _⟩ => rfl)))

/-- The kernel's last region over the reference's attention output, reshaped back, is the reference's result. -/
theorem out_eq :
    shapeCast S8x2048x1024 (Reg3.outArr (shapeCast S16384x1024 (val_main_v20 (F := Ideal) x0 x1 x2 x3 x4) Facts₀.shapeCasts_S64x2048x128_S16384x1024) (shapeCast S16384x1024 x0 Facts₀.shapeCasts_S8x2048x1024_S16384x1024) (truncf (F := Ideal) .bf16 (transpose S1024x1024 [1, 0] x5 Facts₀.transposes_S1024x1024_S1024x1024_1_0) Facts₀.bitsLt_bf16_f32) (shapeCast S1x1024 x6 Facts₀.shapeCasts_S1024_S1x1024) (shapeCast S1x1024 x7 Facts₀.shapeCasts_S1024_S1x1024) (shapeCast S1x1024 x8 Facts₀.shapeCasts_S1024_S1x1024)) Facts₀.shapeCasts_S16384x1024_S8x2048x1024 = val_main_v50 (F := Ideal) x0 x1 x2 x3 x4 x5 x6 x7 x8 := by
  funext i
  obtain ⟨b, s, e, rfl⟩ : ∃ (b : Fin 8) (s : Fin 2048) (e : Fin 1024), i = ix3 b s e := ⟨i 0, i 1, i 2, eq_ix3 i⟩
  have hr : b.val * 2048 + s.val < 16384 := by have := b.isLt; have := s.isLt; omega
  refine (shapeCast_apply _ Facts₀.shapeCasts_S16384x1024_S8x2048x1024 (ix3 b s e) (ix2 (⟨b.val * 2048 + s.val, hr⟩ : Fin 16384) e) (by
    rw [Shape.rowMajor_val_three, Shape.rowMajor_val_two]
    show (b.val * 2048 + s.val) * 1024 + e.val = (b.val * 2048 + s.val) * 1024 + e.val
    rfl)).trans ?_
  rw [Reg3.outArr_apply, ref_out]
  have row1_apply : ∀ (x : S1024.Idx → EReal) (e' : Fin 1024), shapeCast S1x1024 x Facts₀.shapeCasts_S1024_S1x1024 (ix2 (0 : Fin 1) e') = x (ix1 e') := fun x e' =>
    shapeCast_apply x _ _ _ (by
      rw [Shape.rowMajor_val_one, Shape.rowMajor_val_two]
      show e'.val = 0 * 1024 + e'.val
      omega)
  refine Reg3.layerNorm_congr (funext fun e' => ?_) (funext fun e' => row1_apply x7 e') (funext fun e' => row1_apply x8 e') rfl
  rw [ref_y]
  refine congrArg₂ (· + ·) (congrArg₂ (· + ·) (Finset.sum_congr rfl fun k _ => congrArg₂ (· * ·) ?_ (wT_apply x5 k e')) (row1_apply x6 e')) (rows_apply x0 b s e' _ rfl)
  rw [val_main_v21_apply]
  refine shapeCast_apply _ Facts₀.shapeCasts_S64x2048x128_S16384x1024 _ (idx_main_v21 (ix3 b s k)) ?_
  rw [Shape.rowMajor_val_three, Shape.rowMajor_val_two]
  have hb := b.isLt; have hs := s.isLt; have hk := k.isLt
  show ((((b.val * 2048 + s.val) * 1024 + k.val) / 262144) * 2048 + ((b.val * 2048 + s.val) * 1024 + k.val) / 128 % 2048) * 128 + ((b.val * 2048 + s.val) * 1024 + k.val) % 128 = (b.val * 2048 + s.val) * 1024 + k.val
  omega

end Cert.Bridge

end
-- ==== Proof.Final.lean ====
/-
  The idealized kernel program's result as the reference's function of the arguments. The fold of the program's boundaries
  gives the result array as the last region's function of the attention region's, of the three projections'; each
  projection reshaped to heads is the reference's head view, attention over those is the reference's attention output, and
  the last region over that is the reference's result.
-/
import proofs.«160679_j1116691497080_2_alg».proof.Proof.HostSide
import proofs.«160679_j1116691497080_2_alg».proof.Proof.Bridge1
import proofs.«160679_j1116691497080_2_alg».proof.Proof.Bridge2
import proofs.«160679_j1116691497080_2_alg».proof.Proof.Bridge3

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The last boundary's contents at the result array: the reference's composed function of the launch arrays. -/
theorem value : W9 m ρ c (Proc.devRef .tc main_v24)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Fold.result m ρ c).trans ?_
  rw [Cert.Bridge.heads_q, Cert.Bridge.heads_k, Cert.Bridge.heads_v, Cert.Bridge.attn_eq]
  exact Cert.Bridge.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

end Cert.KernelIdeal.Result

end
-- ==== Proof.lean ====
/-
  The certificate of one attention layer: three projections, softmax attention over 64 groups of 2048 rows, the output
  projection with bias and residual, and layer normalisation — a kernel program of four pipelined regions against a plain
  array program. At the ideal values both compute, entry by entry, the same sums, maxima, exponentials, quotients and
  reciprocal square roots of the same arguments: the kernel only tiles the rows, stores the transposed weights, and reshapes
  between its regions. The three frames are the generated ones (the reference's is its generated run with the result
  dropped); nothing was rewritten by the ideal pass, so the idealization claim is trivial; the value claim pairs the kernel
  program's run, its result read back through the regions to the reference's function of the arguments, with the
  reference's generated run.
-/
import proofs.«160679_j1116691497080_2_alg».proof.Defs
import proofs.«160679_j1116691497080_2_alg».proof.Proof.Gen.Kernel
import proofs.«160679_j1116691497080_2_alg».proof.Proof.Gen.Kernel.Frame
import proofs.«160679_j1116691497080_2_alg».proof.Proof.Gen.KernelIdeal
import proofs.«160679_j1116691497080_2_alg».proof.Proof.Gen.KernelIdeal.Frame
import proofs.«160679_j1116691497080_2_alg».proof.Proof.Gen.ReferenceIdeal
import proofs.«160679_j1116691497080_2_alg».proof.Proof.Gen.Pre_finite_inputs
import proofs.«160679_j1116691497080_2_alg».proof.Proof.Gen.ReferenceIdeal.Run
import proofs.«160679_j1116691497080_2_alg».proof.Proof.Gen.ReferenceIdeal.Read
import proofs.«160679_j1116691497080_2_alg».proof.Proof.KernelRun
import proofs.«160679_j1116691497080_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's function of the (agreeing) arguments in their result arrays. -/
theorem algebraic : Cert.algebraic_KernelIdeal_ReferenceIdeal := by
  intro m ρ m' ρ' _ hagree
  refine ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Result.value m ρ c), (h c).2⟩)
      (Cert.KernelIdeal.Result.run m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v50_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
